-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4 : Shape := ⟨2, ![16384, 4]⟩
abbrev S1 : Shape := ⟨1, ![1]⟩
abbrev S38279x1 : Shape := ⟨2, ![38279, 1]⟩
abbrev S38279x128 : Shape := ⟨2, ![38279, 128]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel
  bcast_S_S1 : S_.BroadcastsInDim S1 (![] : Fin 0 → Fin S1.rank)
  reducesTo_S1_S_d0 : S1.ReducesTo [0] S_
  bcast_S_S38279x1 : S_.BroadcastsInDim S38279x1 (![] : Fin 0 → Fin S38279x1.rank)
  reducesTo_S38279x1_S_d0_1 : S38279x1.ReducesTo [0, 1] S_
  bcast_S_S38279x128 : S_.BroadcastsInDim S38279x128 (![] : Fin 0 → Fin S38279x128.rank)
  reducesTo_S38279x128_S_d0_1 : S38279x128.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_

variable [Facts]

def fn_part3 {F : FTy → Type} [FloatOps F] (main_arg11 : FVec F S1 .f32) (main_v48 : IVec S_ 1) (main_v49 : FVec F S512x1 .f32) (main_v50 : FVec F S512x1 .f32) : IVec S_ 1 :=
  let main_v51 : IVec S512x1 1 := cmpf .olt main_v49 main_v50
  let main_c_19 : IVec S_ 1 := constantI S_ 1 1#1
  let main_v52 : IVec S_ 1 := (fun x v => Host.reduce IntOp.andi x v reducesTo_S512x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S1024 .f32) (main_arg8 : FVec F S1024x512 .f32) (main_arg9 : FVec F S512 .f32) (main_arg10 : FVec F S512x1 .f32) (main_arg11 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1 .f32 := Host.absf main_arg10
  let main_cst_18 : FVec F S_ .f32 := constant S_ .f32 0x7F800000#32
  let main_v50 : FVec F S512x1 .f32 := broadcastInDim S512x1 ![] bcast_S_S512x1 main_cst_18
  fn_part3 (F := F) main_arg11 main_v48 main_v49 main_v50

def fn_part1 {F : FTy → Type} [FloatOps F] (main_arg4 : FVec F S512x2048 .f32) (main_arg5 : FVec F S2048 .f32) (main_arg6 : FVec F S2048x1024 .f32) (main_arg7 : FVec F S1024 .f32) (main_arg8 : FVec F S1024x512 .f32) (main_arg9 : FVec F S512 .f32) (main_arg10 : FVec F S512x1 .f32) (main_arg11 : FVec F S1 .f32) (main_v13 : IVec S_ 1) (main_v16 : IVec S38279x128 1) : IVec S_ 1 :=
  let main_c_5 : IVec S_ 1 := constantI S_ 1 1#1
  let main_v17 : IVec S_ 1 := (fun x v => Host.reduce IntOp.andi x v reducesTo_S38279x128_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x4 .f32) (main_arg1 : FVec F S1 .f32) (main_arg2 : FVec F S38279x1 .f32) (main_arg3 : FVec F S38279x128 .f32) (main_arg4 : FVec F S512x2048 .f32) (main_arg5 : FVec F S2048 .f32) (main_arg6 : FVec F S2048x1024 .f32) (main_arg7 : FVec F S1024 .f32) (main_arg8 : FVec F S1024x512 .f32) (main_arg9 : FVec F S512 .f32) (main_arg10 : FVec F S512x1 .f32) (main_arg11 : FVec F S1 .f32) : IVec S_ 1 :=
  let main_v0 : FVec F S16384x4 .f32 := Host.absf main_arg0
  let main_cst : FVec F S_ .f32 := constant S_ .f32 0x7F800000#32
  let main_v1 : FVec F S16384x4 .f32 := broadcastInDim S16384x4 ![] bcast_S_S16384x4 main_cst
  let main_v2 : IVec S16384x4 1 := cmpf .olt main_v0 main_v1
  let main_c : IVec S_ 1 := constantI S_ 1 1#1
  let main_v3 : IVec S_ 1 := (fun x v => Host.reduce IntOp.andi x v reducesTo_S16384x4_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S38279x1 .f32 := Host.absf main_arg2
  let main_cst_2 : FVec F S_ .f32 := constant S_ .f32 0x7F800000#32
  let main_v10 : FVec F S38279x1 .f32 := broadcastInDim S38279x1 ![] bcast_S_S38279x1 main_cst_2
  let main_v11 : IVec S38279x1 1 := cmpf .olt main_v9 main_v10
  let main_c_3 : IVec S_ 1 := constantI S_ 1 1#1
  let main_v12 : IVec S_ 1 := (fun x v => Host.reduce IntOp.andi x v reducesTo_S38279x1_S_d0_1 h_S_) main_v11 main_c_3
  let main_v13 : IVec S_ 1 := andi main_v8 main_v12
  let main_v14 : FVec F S38279x128 .f32 := Host.absf main_arg3
  let main_cst_4 : FVec F S_ .f32 := constant S_ .f32 0x7F800000#32
  let main_v15 : FVec F S38279x128 .f32 := broadcastInDim S38279x128 ![] bcast_S_S38279x128 main_cst_4
  let main_v16 : IVec S38279x128 1 := cmpf .olt main_v14 main_v15
  fn_part1 (F := F) main_arg4 main_arg5 main_arg6 main_arg7 main_arg8 main_arg9 main_arg10 main_arg11 main_v13 main_v16
-- ==== Kernel.lean ====
abbrev S16384x4 : Shape := ⟨2, ![16384, 4]⟩
abbrev S1 : Shape := ⟨1, ![1]⟩
abbrev S38279x1 : Shape := ⟨2, ![38279, 1]⟩
abbrev S38279x128 : Shape := ⟨2, ![38279, 128]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S4 : Shape := ⟨1, ![4]⟩
abbrev S_ : Shape := ⟨0, ![]⟩
abbrev S16384x4x1 : Shape := ⟨3, ![16384, 4, 1]⟩
abbrev S16384x4x128 : Shape := ⟨3, ![16384, 4, 128]⟩
abbrev S16384x512 : Shape := ⟨2, ![16384, 512]⟩
abbrev S1x4 : Shape := ⟨2, ![1, 4]⟩
abbrev S16384x4x2 : Shape := ⟨3, ![16384, 4, 2]⟩
abbrev S16384 : Shape := ⟨1, ![16384]⟩
abbrev S1x2048 : Shape := ⟨2, ![1, 2048]⟩
abbrev S1x1024 : Shape := ⟨2, ![1, 1024]⟩
abbrev S1x512 : Shape := ⟨2, ![1, 512]⟩
abbrev S1x1 : Shape := ⟨2, ![1, 1]⟩
abbrev S16384x1 : Shape := ⟨2, ![16384, 1]⟩
abbrev S1024x1 : Shape := ⟨2, ![1024, 1]⟩
abbrev S1024x2048 : Shape := ⟨2, ![1024, 2048]⟩
abbrev S1024x1024 : Shape := ⟨2, ![1024, 1024]⟩

abbrev nBuf : Space → Nat
  | .hbm => 72
  | .vmem => 14
  | .smem => 0
  | _ => 0

abbrev bufTy : (tb : Table) → Fin (tcTables nBuf tb) → BufTy
  | .hbm, ⟨0, _⟩ => ⟨S16384x4, .f32⟩
  | .hbm, ⟨1, _⟩ => ⟨S1, .f32⟩
  | .hbm, ⟨2, _⟩ => ⟨S38279x1, .f32⟩
  | .hbm, ⟨3, _⟩ => ⟨S38279x128, .f32⟩
  | .hbm, ⟨4, _⟩ => ⟨S512x2048, .f32⟩
  | .hbm, ⟨5, _⟩ => ⟨S2048, .f32⟩
  | .hbm, ⟨6, _⟩ => ⟨S2048x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512x1, .f32⟩
  | .hbm, ⟨11, _⟩ => ⟨S1, .f32⟩
  | .hbm, ⟨12, _⟩ => ⟨S4, .i32⟩
  | .hbm, ⟨13, _⟩ => ⟨S16384x4, .i32⟩
  | .hbm, ⟨14, _⟩ => ⟨S_, .i32⟩
  | .hbm, ⟨15, _⟩ => ⟨S16384x4, .i32⟩
  | .hbm, ⟨16, _⟩ => ⟨S16384x4, .i1⟩
  | .hbm, ⟨17, _⟩ => ⟨S_, .i32⟩
  | .hbm, ⟨18, _⟩ => ⟨S16384x4, .i32⟩
  | .hbm, ⟨19, _⟩ => ⟨S16384x4, .i32⟩
  | .hbm, ⟨20, _⟩ => ⟨S16384x4, .i32⟩
  | .hbm, ⟨21, _⟩ => ⟨S16384x4x1, .i32⟩
  | .hbm, ⟨22, _⟩ => ⟨S16384x4x128, .f32⟩
  | .hbm, ⟨23, _⟩ => ⟨S16384x512, .f32⟩
  | .hbm, ⟨24, _⟩ => ⟨S1x4, .i32⟩
  | .hbm, ⟨25, _⟩ => ⟨S16384x4, .i32⟩
  | .hbm, ⟨26, _⟩ => ⟨S16384x4, .i32⟩
  | .hbm, ⟨27, _⟩ => ⟨S_, .i32⟩
  | .hbm, ⟨28, _⟩ => ⟨S16384x4, .i32⟩
  | .hbm, ⟨29, _⟩ => ⟨S16384x4, .i1⟩
  | .hbm, ⟨30, _⟩ => ⟨S_, .i32⟩
  | .hbm, ⟨31, _⟩ => ⟨S16384x4, .i32⟩
  | .hbm, ⟨32, _⟩ => ⟨S16384x4, .i32⟩
  | .hbm, ⟨33, _⟩ => ⟨S16384x4, .i32⟩
  | .hbm, ⟨34, _⟩ => ⟨S_, .i32⟩
  | .hbm, ⟨35, _⟩ => ⟨S16384x4, .i32⟩
  | .hbm, ⟨36, _⟩ => ⟨S16384x4, .i32⟩
  | .hbm, ⟨37, _⟩ => ⟨S16384x4x1, .i32⟩
  | .hbm, ⟨38, _⟩ => ⟨S16384x4x1, .i32⟩
  | .hbm, ⟨39, _⟩ => ⟨S16384x4x2, .i32⟩
  | .hbm, ⟨40, _⟩ => ⟨S16384x4, .f32⟩
  | .hbm, ⟨41, _⟩ => ⟨S_, .f32⟩
  | .hbm, ⟨42, _⟩ => ⟨S16384, .f32⟩
  | .hbm, ⟨43, _⟩ => ⟨S512x2048, .bf16⟩
  | .hbm, ⟨44, _⟩ => ⟨S2048x1024, .bf16⟩
  | .hbm, ⟨45, _⟩ => ⟨S1024x512, .bf16⟩
  | .hbm, ⟨46, _⟩ => ⟨S512x1, .bf16⟩
  | .hbm, ⟨47, _⟩ => ⟨S1x2048, .f32⟩
  | .hbm, ⟨48, _⟩ => ⟨S1x1024, .f32⟩
  | .hbm, ⟨49, _⟩ => ⟨S1x512, .f32⟩
  | .hbm, ⟨50, _⟩ => ⟨S1x1, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S1x2048, .f32⟩
  | .local _ .vmem, ⟨4, _⟩ => ⟨S2048x1024, .bf16⟩
  | .local _ .vmem, ⟨5, _⟩ => ⟨S1x1024, .f32⟩
  | .local _ .vmem, ⟨6, _⟩ => ⟨S1024x512, .bf16⟩
  | .local _ .vmem, ⟨7, _⟩ => ⟨S1x512, .f32⟩
  | .local _ .vmem, ⟨8, _⟩ => ⟨S512x1, .bf16⟩
  | .local _ .vmem, ⟨9, _⟩ => ⟨S1x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_c_0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32_0 : Ref sig .tc := ⟨.hbm, 51, rfl⟩
abbrev main_v32_1 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S16384x4 : S_.BroadcastsInDim S16384x4 (![] : Fin 0 → Fin S16384x4.rank)
  bcast_S16384x4_S16384x4x1_0_1 : S16384x4.BroadcastsInDim S16384x4x1 (![0, 1] : Fin 2 → Fin S16384x4x1.rank)
  shapeCasts_S16384x4x128_S16384x512 : S16384x4x128.ShapeCasts S16384x512
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  concatenates_S16384x4x1_S16384x4x1_S16384x4x2_d2 : Shape.Concatenates [S16384x4x1, S16384x4x1] S16384x4x2 2
  reducesTo_S16384x4_S16384_d1 : S16384x4.ReducesTo [1] S16384
  h_S_ : 0 < S_.numel
  bitsLt_bf16_f32 : FTy.bits .bf16 < FTy.bits .f32
  shapeCasts_S2048_S1x2048 : S2048.ShapeCasts S1x2048
  shapeCasts_S1024_S1x1024 : S1024.ShapeCasts S1x1024
  shapeCasts_S512_S1x512 : S512.ShapeCasts S1x512
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  reducesTo_S16384x1_S_d0_1 : S16384x1.ReducesTo [0, 1] S_
  shapeCasts_S1_S_ : S1.ShapeCasts S_
  bcast_S_S16384 : S_.BroadcastsInDim S16384 (![] : Fin 0 → Fin S16384.rank)
  shapeCasts_S16384_S16384x1 : S16384.ShapeCasts S16384x1
  bcast_S_S16384x1 : S_.BroadcastsInDim S16384x1 (![] : Fin 0 → Fin S16384x1.rank)
  gather_S38279x128_S16384x4x1_S16384x4x128_2_0_n_n_0_2_1128_wf : GatherDims.WF S38279x128 S16384x4x1 S16384x4x128 [2] [0] [] [0] [] 2 ![1, 128]
  gather_S38279x1_S16384x4x2_S16384x4_n_01_n_n_01_2_11_wf : GatherDims.WF S38279x1 S16384x4x2 S16384x4 [] [0, 1] [] [0, 1] [] 2 ![1, 1]
  dot_S1024x512_S512x2048_S1024x2048_1_0_0_1_n_n_wf : DotDims.WF S1024x512 S512x2048 S1024x2048 [1] [0] [0] [1] [] []
  dot_S1024x2048_S2048x1024_S1024x1024_1_0_0_1_n_n_wf : DotDims.WF S1024x2048 S2048x1024 S1024x1024 [1] [0] [0] [1] [] []
  dot_S1024x1024_S1024x512_S1024x512_1_0_0_1_n_n_wf : DotDims.WF S1024x1024 S1024x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .bf16 = 32 ∨ (Rect.block (s := S512x1) S512x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S16384x1.size a
  hwx0_9 : ∀ i : grid0.Coords, EltTy.bits .f32 = 32 ∨ (Rect.block (s := S16384x1) S1024x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S16384x1.size a
  hwx0_10 : ∀ i : grid0.Coords, EltTy.bits .f32 = 32 ∨ (Rect.block (s := S16384x1) S1024x1.size (cc0_transform_10 i) (hinb0_10 i)).WholeWords (EltTy.packing .f32)

variable [Facts₀]

def gather_S38279x128_S16384x4x1_S16384x4x128_2_0_n_n_0_2_1128 : GatherDims S38279x128 S16384x4x1 S16384x4x128 where
  offsetDims := [2]
  collapsedSliceDims := [0]
  operandBatchingDims := []
  startIndicesBatchingDims := []
  startIndexMap := [0]
  indexVectorDim := 2
  sliceSizes := ![1, 128]
  wf := gather_S38279x128_S16384x4x1_S16384x4x128_2_0_n_n_0_2_1128_wf
def gather_S38279x1_S16384x4x2_S16384x4_n_01_n_n_01_2_11 : GatherDims S38279x1 S16384x4x2 S16384x4 where
  offsetDims := []
  collapsedSliceDims := [0, 1]
  operandBatchingDims := []
  startIndicesBatchingDims := []
  startIndexMap := [0, 1]
  indexVectorDim := 2
  sliceSizes := ![1, 1]
  wf := gather_S38279x1_S16384x4x2_S16384x4_n_01_n_n_01_2_11_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_v8) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32_0) S1024x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v32_1) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x4 : Shape := ⟨2, ![16384, 4]⟩
abbrev S1 : Shape := ⟨1, ![1]⟩
abbrev S38279x1 : Shape := ⟨2, ![38279, 1]⟩
abbrev S38279x128 : Shape := ⟨2, ![38279, 128]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S4 : Shape := ⟨1, ![4]⟩
abbrev S_ : Shape := ⟨0, ![]⟩
abbrev S16384x4x1 : Shape := ⟨3, ![16384, 4, 1]⟩
abbrev S16384x4x128 : Shape := ⟨3, ![16384, 4, 128]⟩
abbrev S16384x512 : Shape := ⟨2, ![16384, 512]⟩
abbrev S1x4 : Shape := ⟨2, ![1, 4]⟩
abbrev S16384x4x2 : Shape := ⟨3, ![16384, 4, 2]⟩
abbrev S16384 : Shape := ⟨1, ![16384]⟩
abbrev S16384x1 : Shape := ⟨2, ![16384, 1]⟩
abbrev S16384x2048 : Shape := ⟨2, ![16384, 2048]⟩
abbrev S1x2048 : Shape := ⟨2, ![1, 2048]⟩
abbrev S16384x1024 : Shape := ⟨2, ![16384, 1024]⟩
abbrev S1x1024 : Shape := ⟨2, ![1, 1024]⟩
abbrev S1x512 : Shape := ⟨2, ![1, 512]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x4, .f32⟩
  | .hbm, ⟨1, _⟩ => ⟨S1, .f32⟩
  | .hbm, ⟨2, _⟩ => ⟨S38279x1, .f32⟩
  | .hbm, ⟨3, _⟩ => ⟨S38279x128, .f32⟩
  | .hbm, ⟨4, _⟩ => ⟨S512x2048, .f32⟩
  | .hbm, ⟨5, _⟩ => ⟨S2048, .f32⟩
  | .hbm, ⟨6, _⟩ => ⟨S2048x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512x1, .f32⟩
  | .hbm, ⟨11, _⟩ => ⟨S1, .f32⟩
  | .hbm, ⟨12, _⟩ => ⟨S4, .i32⟩
  | .hbm, ⟨13, _⟩ => ⟨S16384x4, .i32⟩
  | .hbm, ⟨14, _⟩ => ⟨S_, .i32⟩
  | .hbm, ⟨15, _⟩ => ⟨S16384x4, .i32⟩
  | .hbm, ⟨16, _⟩ => ⟨S16384x4, .i1⟩
  | .hbm, ⟨17, _⟩ => ⟨S_, .i32⟩
  | .hbm, ⟨18, _⟩ => ⟨S16384x4, .i32⟩
  | .hbm, ⟨19, _⟩ => ⟨S16384x4, .i32⟩
  | .hbm, ⟨20, _⟩ => ⟨S16384x4, .i32⟩
  | .hbm, ⟨21, _⟩ => ⟨S16384x4x1, .i32⟩
  | .hbm, ⟨22, _⟩ => ⟨S16384x4x128, .f32⟩
  | .hbm, ⟨23, _⟩ => ⟨S16384x512, .f32⟩
  | .hbm, ⟨24, _⟩ => ⟨S1x4, .i32⟩
  | .hbm, ⟨25, _⟩ => ⟨S16384x4, .i32⟩
  | .hbm, ⟨26, _⟩ => ⟨S16384x4, .i32⟩
  | .hbm, ⟨27, _⟩ => ⟨S_, .i32⟩
  | .hbm, ⟨28, _⟩ => ⟨S16384x4, .i32⟩
  | .hbm, ⟨29, _⟩ => ⟨S16384x4, .i1⟩
  | .hbm, ⟨30, _⟩ => ⟨S_, .i32⟩
  | .hbm, ⟨31, _⟩ => ⟨S16384x4, .i32⟩
  | .hbm, ⟨32, _⟩ => ⟨S16384x4, .i32⟩
  | .hbm, ⟨33, _⟩ => ⟨S16384x4, .i32⟩
  | .hbm, ⟨34, _⟩ => ⟨S_, .i32⟩
  | .hbm, ⟨35, _⟩ => ⟨S16384x4, .i32⟩
  | .hbm, ⟨36, _⟩ => ⟨S16384x4, .i32⟩
  | .hbm, ⟨37, _⟩ => ⟨S16384x4x1, .i32⟩
  | .hbm, ⟨38, _⟩ => ⟨S16384x4x1, .i32⟩
  | .hbm, ⟨39, _⟩ => ⟨S16384x4x2, .i32⟩
  | .hbm, ⟨40, _⟩ => ⟨S16384x4, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384x512, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S_, .f32⟩
  | .hbm, ⟨53, _⟩ => ⟨S_, .f32⟩
  | .hbm, ⟨54, _⟩ => ⟨S1, .f32⟩
  | .hbm, ⟨55, _⟩ => ⟨S_, .f32⟩
  | .hbm, ⟨56, _⟩ => ⟨S1, .f32⟩
  | .hbm, ⟨57, _⟩ => ⟨S1, .f32⟩
  | .hbm, ⟨58, _⟩ => ⟨S16384, .f32⟩
  | .hbm, ⟨59, _⟩ => ⟨S16384, .f32⟩
  | .hbm, ⟨60, _⟩ => ⟨S16384x1, .f32⟩
  | .hbm, ⟨61, _⟩ => ⟨S16384x2048, .f32⟩
  | .hbm, ⟨62, _⟩ => ⟨S1x2048, .f32⟩
  | .hbm, ⟨63, _⟩ => ⟨S16384x2048, .f32⟩
  | .hbm, ⟨64, _⟩ => ⟨S16384x2048, .f32⟩
  | .hbm, ⟨65, _⟩ => ⟨S_, .f32⟩
  | .hbm, ⟨66, _⟩ => ⟨S16384x2048, .f32⟩
  | .hbm, ⟨67, _⟩ => ⟨S16384x2048, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x512, .f32⟩
  | .hbm, ⟨76, _⟩ => ⟨S1x512, .f32⟩
  | .hbm, ⟨77, _⟩ => ⟨S16384x512, .f32⟩
  | .hbm, ⟨78, _⟩ => ⟨S16384x512, .f32⟩
  | .hbm, ⟨79, _⟩ => ⟨S_, .f32⟩
  | .hbm, ⟨80, _⟩ => ⟨S16384x512, .f32⟩
  | .hbm, ⟨81, _⟩ => ⟨S16384x512, .f32⟩
  | .hbm, ⟨82, _⟩ => ⟨S16384x1, .f32⟩
  | .hbm, ⟨83, _⟩ => ⟨S1x1, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_c_0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call0_cst : Ref sig .tc := ⟨.hbm, 65, rfl⟩
abbrev main_call0_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]

class Facts₀ : Prop where
  bcast_S_S16384x4 : S_.BroadcastsInDim S16384x4 (![] : Fin 0 → Fin S16384x4.rank)
  bcast_S16384x4_S16384x4x1_0_1 : S16384x4.BroadcastsInDim S16384x4x1 (![0, 1] : Fin 2 → Fin S16384x4x1.rank)
  shapeCasts_S16384x4x128_S16384x512 : S16384x4x128.ShapeCasts S16384x512
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  concatenates_S16384x4x1_S16384x4x1_S16384x4x2_d2 : Shape.Concatenates [S16384x4x1, S16384x4x1] S16384x4x2 2
  reducesTo_S16384x4_S16384_d1 : S16384x4.ReducesTo [1] S16384
  h_S_ : 0 < S_.numel
  bcast_S1_S16384_0 : S1.BroadcastsInDim S16384 (![0] : Fin 1 → Fin S16384.rank)
  reducesTo_S16384x512_S16384_d1 : S16384x512.ReducesTo [1] S16384
  reducesTo_S16384_S_d0 : S16384.ReducesTo [0] S_
  bcast_S_S1 : S_.BroadcastsInDim S1 (![] : Fin 0 → Fin S1.rank)
  bcast_S16384_S16384x1_0 : S16384.BroadcastsInDim S16384x1 (![0] : Fin 1 → Fin S16384x1.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S38279x128_S16384x4x1_S16384x4x128_2_0_n_n_0_2_1128_wf : GatherDims.WF S38279x128 S16384x4x1 S16384x4x128 [2] [0] [] [0] [] 2 ![1, 128]
  gather_S38279x1_S16384x4x2_S16384x4_n_01_n_n_01_2_11_wf : GatherDims.WF S38279x1 S16384x4x2 S16384x4 [] [0, 1] [] [0, 1] [] 2 ![1, 1]
  dot_S16384x512_S512x2048_S16384x2048_1_0_0_1_n_n_wf : DotDims.WF S16384x512 S512x2048 S16384x2048 [1] [0] [0] [1] [] []
  dot_S16384x2048_S2048x1024_S16384x1024_1_0_0_1_n_n_wf : DotDims.WF S16384x2048 S2048x1024 S16384x1024 [1] [0] [0] [1] [] []
  dot_S16384x1024_S1024x512_S16384x512_1_0_0_1_n_n_wf : DotDims.WF S16384x1024 S1024x512 S16384x512 [1] [0] [0] [1] [] []
  dot_S16384x512_S512x1_S16384x1_1_0_0_1_n_n_wf : DotDims.WF S16384x512 S512x1 S16384x1 [1] [0] [0] [1] [] []

variable [Facts₀]

def gather_S38279x128_S16384x4x1_S16384x4x128_2_0_n_n_0_2_1128 : GatherDims S38279x128 S16384x4x1 S16384x4x128 where
  offsetDims := [2]
  collapsedSliceDims := [0]
  operandBatchingDims := []
  startIndicesBatchingDims := []
  startIndexMap := [0]
  indexVectorDim := 2
  sliceSizes := ![1, 128]
  wf := gather_S38279x128_S16384x4x1_S16384x4x128_2_0_n_n_0_2_1128_wf
def gather_S38279x1_S16384x4x2_S16384x4_n_01_n_n_01_2_11 : GatherDims S38279x1 S16384x4x2 S16384x4 where
  offsetDims := []
  collapsedSliceDims := [0, 1]
  operandBatchingDims := []
  startIndicesBatchingDims := []
  startIndexMap := [0, 1]
  indexVectorDim := 2
  sliceSizes := ![1, 1]
  wf := gather_S38279x1_S16384x4x2_S16384x4_n_01_n_n_01_2_11_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibMlp4.lean ====
/-
  Three rectified affine layers followed by an affine layer.

  With weight matrices W1 … W4 and biases b1 … b4 the function is
  ((relu(relu(relu(X·W1 + b1)·W2 + b2)·W3 + b3))·W4 + b4), entry by entry on the extended reals. Every layer acts on each row
  by itself, so the function on a block of rows is the function on the whole array at those rows. The vector unit
  spells it with matrix products into zero accumulators, bias rows broadcast over the rows and maxima with a zero
  splat (changes of float format between the layers being the identity); the host spells it with general dot
  products, biases broadcast in two steps and maxima with a broadcast zero. Both are this function.
-/
import proofs.«163180_j37349035606580_2_alg».proof.Proof.LibDense

noncomputable section

open scoped BigOperators

namespace Cert.Dense

open Idealize.ShloMosaic Idealize.ShloMosaic.ValueIdx

variable {M D0 D1 D2 D3 D4 : ℕ}

/-- The four layers with the biases stored as one-row matrices. -/
def mlp4 (X : Mat M D0) (W1 : Mat D0 D1) (b1 : Mat 1 D1) (W2 : Mat D1 D2) (b2 : Mat 1 D2) (W3 : Mat D2 D3) (b3 : Mat 1 D3)
    (W4 : Mat D3 D4) (b4 : Mat 1 D4) : Mat M D4 :=
  affine2 (relu (affine2 (relu (affine2 (relu (affine2 X W1 b1)) W2 b2)) W3 b3)) W4 b4

/-- The four layers with the biases stored as vectors. -/
def mlp4v (X : Mat M D0) (W1 : Mat D0 D1) (b1 : Row D1) (W2 : Mat D1 D2) (b2 : Row D2) (W3 : Mat D2 D3) (b3 : Row D3)
    (W4 : Mat D3 D4) (b4 : Row D4) : Mat M D4 :=
  affine (relu (affine (relu (affine (relu (affine X W1 b1)) W2 b2)) W3 b3)) W4 b4

/-- The two storages of the biases give one function. -/
theorem mlp4_eq_mlp4v (X : Mat M D0) (W1 : Mat D0 D1) (b1 : Row D1) (b1' : Mat 1 D1) (W2 : Mat D1 D2) (b2 : Row D2) (b2' : Mat 1 D2)
    (W3 : Mat D2 D3) (b3 : Row D3) (b3' : Mat 1 D3) (W4 : Mat D3 D4) (b4 : Row D4) (b4' : Mat 1 D4)
    (h1 : ∀ q : Fin D1, b1' (ix2 (0 : Fin 1) q) = b1 (ix1 q)) (h2 : ∀ q : Fin D2, b2' (ix2 (0 : Fin 1) q) = b2 (ix1 q))
    (h3 : ∀ q : Fin D3, b3' (ix2 (0 : Fin 1) q) = b3 (ix1 q)) (h4 : ∀ q : Fin D4, b4' (ix2 (0 : Fin 1) q) = b4 (ix1 q)) :
    mlp4 X W1 b1' W2 b2' W3 b3' W4 b4' = mlp4v X W1 b1 W2 b2 W3 b3 W4 b4 := by
  unfold mlp4 mlp4v
  rw [affine_eq_affine2 X W1 b1 b1' h1, affine_eq_affine2 _ W2 b2 b2' h2, affine_eq_affine2 _ W3 b3 b3' h3,
    affine_eq_affine2 _ W4 b4 b4' h4]

/-- The four layers on a block of rows are the four layers on the whole array at those rows. -/
theorem mlp4_rows {M' : ℕ} (A : Mat M' D0) (blk : Mat M D0) (W1 : Mat D0 D1) (b1 : Mat 1 D1) (W2 : Mat D1 D2) (b2 : Mat 1 D2)
    (W3 : Mat D2 D3) (b3 : Mat 1 D3) (W4 : Mat D3 D4) (b4 : Mat 1 D4) (ρ : Fin M → Fin M')
    (h : ∀ p k, blk (ix2 p k) = A (ix2 (ρ p) k)) (p : Fin M) (q : Fin D4) :
    mlp4 blk W1 b1 W2 b2 W3 b3 W4 b4 (ix2 p q) = mlp4 A W1 b1 W2 b2 W3 b3 W4 b4 (ix2 (ρ p) q) := by
  unfold mlp4
  refine affine2_rows _ _ W4 b4 ρ (fun p k => ?_) p q
  refine relu_affine2_rows _ _ W3 b3 ρ (fun p k => ?_) p k
  refine relu_affine2_rows _ _ W2 b2 ρ (fun p k => ?_) p k
  exact relu_affine2_rows A blk W1 b1 ρ h p k

/-- The vector unit's spelling on a block of rows. -/
theorem kernel_mlp4 {φ₀ φ₁ φ₂ φ₃ φ₄ ψ₁ ψ₂ ψ₃ : FTy} (prec : Option ContractPrecision)
    (x : FVec Ideal ⟨2, ![M, D0]⟩ φ₀) (w1 : FVec Ideal ⟨2, ![D0, D1]⟩ φ₁) (b1 : FVec Ideal ⟨2, ![1, D1]⟩ .f32)
    (w2 : FVec Ideal ⟨2, ![D1, D2]⟩ φ₂) (b2 : FVec Ideal ⟨2, ![1, D2]⟩ .f32)
    (w3 : FVec Ideal ⟨2, ![D2, D3]⟩ φ₃) (b3 : FVec Ideal ⟨2, ![1, D3]⟩ .f32)
    (w4 : FVec Ideal ⟨2, ![D3, D4]⟩ φ₄) (b4 : FVec Ideal ⟨2, ![1, D4]⟩ .f32)
    (t1 : ψ₁.bits < FTy.f32.bits) (t2 : ψ₂.bits < FTy.f32.bits) (t3 : ψ₃.bits < FTy.f32.bits)
    (h1 : (⟨2, ![1, D1]⟩ : Shape).Broadcasts ⟨2, ![M, D1]⟩) (h2 : (⟨2, ![1, D2]⟩ : Shape).Broadcasts ⟨2, ![M, D2]⟩)
    (h3 : (⟨2, ![1, D3]⟩ : Shape).Broadcasts ⟨2, ![M, D3]⟩) (h4 : (⟨2, ![1, D4]⟩ : Shape).Broadcasts ⟨2, ![M, D4]⟩) :
    addf (matmul (DotDims.plain M D3 D4) prec
            (truncf ψ₃ (maximumf (addf (matmul (DotDims.plain M D2 D3) prec
              (truncf ψ₂ (maximumf (addf (matmul (DotDims.plain M D1 D2) prec
                (truncf ψ₁ (maximumf (addf (matmul (DotDims.plain M D0 D1) prec x w1 (constant (F := Ideal) ⟨2, ![M, D1]⟩ .f32 0x00000000#32))
                    (broadcastTo ⟨2, ![M, D1]⟩ b1 h1))
                  (broadcast ⟨2, ![M, D1]⟩ (Scalar.ofBits (F := Ideal) .f32 0x00000000#32))) t1)
                w2 (constant (F := Ideal) ⟨2, ![M, D2]⟩ .f32 0x00000000#32))
                  (broadcastTo ⟨2, ![M, D2]⟩ b2 h2))
                (broadcast ⟨2, ![M, D2]⟩ (Scalar.ofBits (F := Ideal) .f32 0x00000000#32))) t2)
              w3 (constant (F := Ideal) ⟨2, ![M, D3]⟩ .f32 0x00000000#32))
                (broadcastTo ⟨2, ![M, D3]⟩ b3 h3))
              (broadcast ⟨2, ![M, D3]⟩ (Scalar.ofBits (F := Ideal) .f32 0x00000000#32))) t3)
            w4 (constant (F := Ideal) ⟨2, ![M, D4]⟩ .f32 0x00000000#32))
         (broadcastTo ⟨2, ![M, D4]⟩ b4 h4)
      = mlp4 x w1 b1 w2 b2 w3 b3 w4 b4 := by
  rw [addf_matmul_broadcastTo prec x w1 b1 h1, maximumf_splat_zero, truncf_id,
    addf_matmul_broadcastTo prec _ w2 b2 h2, maximumf_splat_zero, truncf_id,
    addf_matmul_broadcastTo prec _ w3 b3 h3, maximumf_splat_zero, truncf_id,
    addf_matmul_broadcastTo prec _ w4 b4 h4]
  rfl

/-- The host's spelling on the whole array. -/
theorem host_mlp4 (x : FVec Ideal ⟨2, ![M, D0]⟩ .f32) (w1 : FVec Ideal ⟨2, ![D0, D1]⟩ .f32) (b1 : FVec Ideal ⟨1, ![D1]⟩ .f32)
    (w2 : FVec Ideal ⟨2, ![D1, D2]⟩ .f32) (b2 : FVec Ideal ⟨1, ![D2]⟩ .f32)
    (w3 : FVec Ideal ⟨2, ![D2, D3]⟩ .f32) (b3 : FVec Ideal ⟨1, ![D3]⟩ .f32)
    (w4 : FVec Ideal ⟨2, ![D3, D4]⟩ .f32) (b4 : FVec Ideal ⟨1, ![D4]⟩ .f32)
    (r1 : (⟨1, ![D1]⟩ : Shape).BroadcastsInDim ⟨2, ![1, D1]⟩ ![1]) (s1 : (⟨2, ![1, D1]⟩ : Shape).BroadcastsInDim ⟨2, ![M, D1]⟩ ![0, 1])
    (r2 : (⟨1, ![D2]⟩ : Shape).BroadcastsInDim ⟨2, ![1, D2]⟩ ![1]) (s2 : (⟨2, ![1, D2]⟩ : Shape).BroadcastsInDim ⟨2, ![M, D2]⟩ ![0, 1])
    (r3 : (⟨1, ![D3]⟩ : Shape).BroadcastsInDim ⟨2, ![1, D3]⟩ ![1]) (s3 : (⟨2, ![1, D3]⟩ : Shape).BroadcastsInDim ⟨2, ![M, D3]⟩ ![0, 1])
    (r4 : (⟨1, ![D4]⟩ : Shape).BroadcastsInDim ⟨2, ![1, D4]⟩ ![1]) (s4 : (⟨2, ![1, D4]⟩ : Shape).BroadcastsInDim ⟨2, ![M, D4]⟩ ![0, 1])
    (z1 : (⟨0, ![]⟩ : Shape).BroadcastsInDim ⟨2, ![M, D1]⟩ ![]) (z2 : (⟨0, ![]⟩ : Shape).BroadcastsInDim ⟨2, ![M, D2]⟩ ![])
    (z3 : (⟨0, ![]⟩ : Shape).BroadcastsInDim ⟨2, ![M, D3]⟩ ![]) :
    addf (Host.dotGeneral (F := Ideal) (DotDims.plain M D3 D4) none
            (maximumf (addf (Host.dotGeneral (F := Ideal) (DotDims.plain M D2 D3) none
              (maximumf (addf (Host.dotGeneral (F := Ideal) (DotDims.plain M D1 D2) none
                (maximumf (addf (Host.dotGeneral (F := Ideal) (DotDims.plain M D0 D1) none x w1)
                    (broadcastInDim ⟨2, ![M, D1]⟩ ![0, 1] s1 (broadcastInDim ⟨2, ![1, D1]⟩ ![1] r1 b1)))
                  (broadcastInDim ⟨2, ![M, D1]⟩ ![] z1 (constant (F := Ideal) ⟨0, ![]⟩ .f32 0x00000000#32)))
                w2)
                  (broadcastInDim ⟨2, ![M, D2]⟩ ![0, 1] s2 (broadcastInDim ⟨2, ![1, D2]⟩ ![1] r2 b2)))
                (broadcastInDim ⟨2, ![M, D2]⟩ ![] z2 (constant (F := Ideal) ⟨0, ![]⟩ .f32 0x00000000#32)))
              w3)
                (broadcastInDim ⟨2, ![M, D3]⟩ ![0, 1] s3 (broadcastInDim ⟨2, ![1, D3]⟩ ![1] r3 b3)))
              (broadcastInDim ⟨2, ![M, D3]⟩ ![] z3 (constant (F := Ideal) ⟨0, ![]⟩ .f32 0x00000000#32)))
            w4)
         (broadcastInDim ⟨2, ![M, D4]⟩ ![0, 1] s4 (broadcastInDim ⟨2, ![1, D4]⟩ ![1] r4 b4))
      = mlp4v x w1 b1 w2 b2 w3 b3 w4 b4 := by
  rw [addf_dotGeneral_broadcastInDim x w1 b1 r1 s1, maximumf_broadcastInDim_zero,
    addf_dotGeneral_broadcastInDim _ w2 b2 r2 s2, maximumf_broadcastInDim_zero,
    addf_dotGeneral_broadcastInDim _ w3 b3 r3 s3, maximumf_broadcastInDim_zero,
    addf_dotGeneral_broadcastInDim _ w4 b4 r4 s4]
  rfl

end Cert.Dense

end
-- ==== Proof.LibRowStat.lean ====
/-
  The square of a row's sum minus the sum of its squares, and its total over the rows.

  For a matrix Z the row statistic at row p is (Σ_k Z(p,k))² − Σ_k Z(p,k)². The vector unit computes it on a block
  of rows by two lane sums kept as columns; the host computes it on the whole array by two sums over the second
  axis. Both are this function of the row. It depends on the row alone, so on a block of rows it is the statistic
  of the whole matrix at those rows. Its total over all rows is the same number whether the rows are kept as a
  one-column matrix and summed over both axes or kept as a vector and summed over its one axis.
-/
import proofs.«163180_j37349035606580_2_alg».proof.Proof.LibDense

noncomputable section

open scoped BigOperators

namespace Cert.Dense

open Idealize.ShloMosaic Idealize.ShloMosaic.ValueIdx

variable {M K : ℕ}

/-- The square of row p's sum minus the sum of row p's squares. -/
def cross (Z : Mat M K) (p : Fin M) : EReal :=
  (∑ k : Fin K, Z (ix2 p k)) * (∑ k : Fin K, Z (ix2 p k)) - ∑ k : Fin K, Z (ix2 p k) * Z (ix2 p k)

/-- The statistic of a block of rows is the statistic of the whole matrix at those rows. -/
theorem cross_rows {M' : ℕ} (A : Mat M' K) (blk : Mat M K) (ρ : Fin M → Fin M')
    (h : ∀ p k, blk (ix2 p k) = A (ix2 (ρ p) k)) (p : Fin M) : cross blk p = cross A (ρ p) := by
  unfold cross
  have h1 : (∑ k : Fin K, blk (ix2 p k)) = ∑ k : Fin K, A (ix2 (ρ p) k) := Finset.sum_congr rfl fun k _ => h p k
  have h2 : (∑ k : Fin K, blk (ix2 p k) * blk (ix2 p k)) = ∑ k : Fin K, A (ix2 (ρ p) k) * A (ix2 (ρ p) k) :=
    Finset.sum_congr rfl fun k _ => by rw [h p k]
  rw [h1, h2]

/-- A lane sum kept as a column, read at an entry: the sum of the row. -/
theorem laneSum_col_apply (v : FVec Ideal ⟨2, ![M, K]⟩ .f32)
    (hred : (⟨2, ![M, K]⟩ : Shape).Reduces [1] ⟨1, ![M]⟩) (hφ : FKind.Formats .f32)
    (hacc : (0x00000000#32 : BitVec 32) = FKind.add.neutral .f32 hφ)
    (hlift : ∀ (p : Fin M) (k : Fin K), hred.lift (ix1 p) k = ix2 p k)
    (hsc : (⟨1, ![M]⟩ : Shape).ShapeCasts ⟨2, ![M, 1]⟩) (p : Fin M) (q : Fin 1) :
    shapeCast ⟨2, ![M, 1]⟩ (multiReduction .add [1] ⟨1, ![M]⟩ v 0x00000000#32 hred hφ hacc) hsc (ix2 p q)
      = ∑ k : Fin K, v (ix2 p k) := by
  rw [shapeCast_apply _ hsc (ix2 p q) (ix1 p) (by
      rw [Shape.rowMajor_val_two, Shape.rowMajor_val_one]
      show p.val = p.val * 1 + q.val
      have := q.isLt
      omega)]
  rw [Ideal.multiReduction_add_single]
  exact Finset.sum_congr rfl fun k _ => by rw [hlift p k]

/-- The vector unit's form of the statistic on a block: entry (p, q) of the column is the statistic of row p. -/
theorem kernel_cross (z : FVec Ideal ⟨2, ![M, K]⟩ .f32)
    (hred : (⟨2, ![M, K]⟩ : Shape).Reduces [1] ⟨1, ![M]⟩) (hφ : FKind.Formats .f32)
    (hacc : (0x00000000#32 : BitVec 32) = FKind.add.neutral .f32 hφ)
    (hlift : ∀ (p : Fin M) (k : Fin K), hred.lift (ix1 p) k = ix2 p k)
    (hsc : (⟨1, ![M]⟩ : Shape).ShapeCasts ⟨2, ![M, 1]⟩) (p : Fin M) (q : Fin 1) :
    subf (mulf (shapeCast ⟨2, ![M, 1]⟩ (multiReduction .add [1] ⟨1, ![M]⟩ z 0x00000000#32 hred hφ hacc) hsc)
               (shapeCast ⟨2, ![M, 1]⟩ (multiReduction .add [1] ⟨1, ![M]⟩ z 0x00000000#32 hred hφ hacc) hsc))
         (shapeCast ⟨2, ![M, 1]⟩ (multiReduction .add [1] ⟨1, ![M]⟩ (mulf z z) 0x00000000#32 hred hφ hacc) hsc) (ix2 p q)
      = cross z p := by
  show shapeCast ⟨2, ![M, 1]⟩ (multiReduction .add [1] ⟨1, ![M]⟩ z 0x00000000#32 hred hφ hacc) hsc (ix2 p q)
        * shapeCast ⟨2, ![M, 1]⟩ (multiReduction .add [1] ⟨1, ![M]⟩ z 0x00000000#32 hred hφ hacc) hsc (ix2 p q)
        - shapeCast ⟨2, ![M, 1]⟩ (multiReduction .add [1] ⟨1, ![M]⟩ (mulf z z) 0x00000000#32 hred hφ hacc) hsc (ix2 p q)
      = cross z p
  rw [laneSum_col_apply z hred hφ hacc hlift hsc p q, laneSum_col_apply (mulf z z) hred hφ hacc hlift hsc p q]
  rfl

/-- The host's sum over the second axis from the zero word, read at a row: the sum of the row. -/
theorem hostRowSum_apply (v : FVec Ideal ⟨2, ![M, K]⟩ .f32)
    (hrt : (⟨2, ![M, K]⟩ : Shape).ReducesTo [1] ⟨1, ![M]⟩) (hS : 0 < (⟨0, ![]⟩ : Shape).numel)
    (hred : (⟨2, ![M, K]⟩ : Shape).Reduces [1] ⟨1, ![M]⟩)
    (hlift : ∀ (p : Fin M) (k : Fin K), hred.lift (ix1 p) k = ix2 p k) (p : Fin M) :
    Host.reduceAdd v (constant (F := Ideal) ⟨0, ![]⟩ .f32 0x00000000#32) hrt hS (ix1 p) = ∑ k : Fin K, v (ix2 p k) := by
  simp only [Host.reduceAdd, Ideal.hostReduceAdd_def]
  rw [Ideal.hostReduceAdd_single hrt hred]
  show Ideal.ofBits .f32 0x00000000#32 + ∑ k : Fin K, v (hred.lift (ix1 p) k) = _
  rw [Ideal.ofBits_zero_f32, zero_add]
  exact Finset.sum_congr rfl fun k _ => by rw [hlift p k]

/-- The host's form of the statistic on the whole array: entry p of the vector is the statistic of row p. -/
theorem host_cross (z : FVec Ideal ⟨2, ![M, K]⟩ .f32)
    (hrt : (⟨2, ![M, K]⟩ : Shape).ReducesTo [1] ⟨1, ![M]⟩) (hS : 0 < (⟨0, ![]⟩ : Shape).numel)
    (hred : (⟨2, ![M, K]⟩ : Shape).Reduces [1] ⟨1, ![M]⟩)
    (hlift : ∀ (p : Fin M) (k : Fin K), hred.lift (ix1 p) k = ix2 p k) (p : Fin M) :
    subf (mulf (Host.reduceAdd z (constant (F := Ideal) ⟨0, ![]⟩ .f32 0x00000000#32) hrt hS)
               (Host.reduceAdd z (constant (F := Ideal) ⟨0, ![]⟩ .f32 0x00000000#32) hrt hS))
         (Host.reduceAdd (mulf z z) (constant (F := Ideal) ⟨0, ![]⟩ .f32 0x00000000#32) hrt hS) (ix1 p)
      = cross z p := by
  show Host.reduceAdd z (constant (F := Ideal) ⟨0, ![]⟩ .f32 0x00000000#32) hrt hS (ix1 p)
        * Host.reduceAdd z (constant (F := Ideal) ⟨0, ![]⟩ .f32 0x00000000#32) hrt hS (ix1 p)
        - Host.reduceAdd (mulf z z) (constant (F := Ideal) ⟨0, ![]⟩ .f32 0x00000000#32) hrt hS (ix1 p)
      = cross z p
  rw [hostRowSum_apply z hrt hS hred hlift p, hostRowSum_apply (mulf z z) hrt hS hred hlift p]
  rfl

/-! ## Totals over the rows -/

/-- A rank-1 index set is its one coordinate's range. -/
def idxEquiv1 {n : ℕ} : (⟨1, ![n]⟩ : Shape).Idx ≃ Fin n where
  toFun i := i 0
  invFun p := ix1 p
  left_inv i := (eq_ix1 i).symm
  right_inv _ := rfl

/-- A sum over a vector's indices is the sum over its coordinate. -/
theorem sum_idx1 {n : ℕ} (f : (⟨1, ![n]⟩ : Shape).Idx → EReal) : ∑ i, f i = ∑ p : Fin n, f (ix1 p) := by
  rw [← Equiv.sum_comp (idxEquiv1 (n := n)).symm f]
  rfl

/-- A sum over a one-column matrix's indices is the sum over its rows. -/
theorem sum_idx_col {n : ℕ} (f : (⟨2, ![n, 1]⟩ : Shape).Idx → EReal) : ∑ i, f i = ∑ p : Fin n, f (ix2 p (0 : Fin 1)) := by
  rw [sum_idx2]
  exact Finset.sum_congr rfl fun p _ => Fin.sum_univ_one _

/-- The host's sum of a one-column matrix over both axes, from the zero word: the sum over the rows. -/
theorem hostTotal_col (v : FVec Ideal ⟨2, ![M, 1]⟩ .f32) (hrt : (⟨2, ![M, 1]⟩ : Shape).ReducesTo [0, 1] ⟨0, ![]⟩)
    (hS : 0 < (⟨0, ![]⟩ : Shape).numel) (j : (⟨0, ![]⟩ : Shape).Idx) :
    Host.reduceAdd v (constant (F := Ideal) ⟨0, ![]⟩ .f32 0x00000000#32) hrt hS j = ∑ p : Fin M, v (ix2 p (0 : Fin 1)) := by
  simp only [Host.reduceAdd, Ideal.hostReduceAdd_def]
  rw [Ideal.hostReduceAdd_total hrt (fun b => b.elim0)]
  show Ideal.ofBits .f32 0x00000000#32 + ∑ i, v i = _
  rw [Ideal.ofBits_zero_f32, zero_add, sum_idx_col]

/-- The host's sum of a vector over its axis, from the zero word: the sum over the entries. -/
theorem hostTotal_vec (v : FVec Ideal ⟨1, ![M]⟩ .f32) (hrt : (⟨1, ![M]⟩ : Shape).ReducesTo [0] ⟨0, ![]⟩)
    (hS : 0 < (⟨0, ![]⟩ : Shape).numel) (j : (⟨0, ![]⟩ : Shape).Idx) :
    Host.reduceAdd v (constant (F := Ideal) ⟨0, ![]⟩ .f32 0x00000000#32) hrt hS j = ∑ p : Fin M, v (ix1 p) := by
  simp only [Host.reduceAdd, Ideal.hostReduceAdd_def]
  rw [Ideal.hostReduceAdd_total hrt (fun b => b.elim0)]
  show Ideal.ofBits .f32 0x00000000#32 + ∑ i, v i = _
  rw [Ideal.ofBits_zero_f32, zero_add, sum_idx1]

end Cert.Dense

end
-- ==== Proof.Body.lean ====
/-
  What the kernel's body stores, as functions of the blocks it loads.

  At a grid point the body loads a block of 1024 rows of the embedded batch, the four weight matrices and the four
  bias rows. Into its first output block it stores the four dense layers of the block of rows; into its second, for
  each row, the square of the row's sum minus the sum of the row's squares. A change of float format is the
  identity on the extended reals and a cast between equal shapes changes nothing, so the stored values are exactly
  these two functions of the loaded blocks.
-/
import proofs.«163180_j37349035606580_2_alg».proof.Proof.Gen.KernelIdeal.Skeleton
import proofs.«163180_j37349035606580_2_alg».proof.Proof.LibMlp4
import proofs.«163180_j37349035606580_2_alg».proof.Proof.LibRowStat

noncomputable section

open scoped BigOperators

namespace Cert.KernelIdeal.Body

open Cert.KernelIdeal Cert.KernelIdeal.Gen Idealize.ShloMosaic Idealize.ShloMosaic.ValueIdx Cert.Dense

/-- The four products contract the left factor's columns with the right factor's rows. -/
theorem dot1_plain : dot_S1024x512_S512x2048_S1024x2048_1_0_0_1_n_n = DotDims.plain 1024 512 2048 := rfl
theorem dot2_plain : dot_S1024x2048_S2048x1024_S1024x1024_1_0_0_1_n_n = DotDims.plain 1024 2048 1024 := rfl
theorem dot3_plain : dot_S1024x1024_S1024x512_S1024x512_1_0_0_1_n_n = DotDims.plain 1024 1024 512 := rfl
theorem dot4_plain : dot_S1024x512_S512x1_S1024x1_1_0_0_1_n_n = DotDims.plain 1024 512 1 := rfl

/-- The first output block: the four layers of the block of rows. -/
theorem layers_block (x0 : FVec Ideal S1024x512 .f32) (x1 : FVec Ideal S512x2048 .bf16) (x2 : FVec Ideal S1x2048 .f32)
    (x3 : FVec Ideal S2048x1024 .bf16) (x4 : FVec Ideal S1x1024 .f32) (x5 : FVec Ideal S1024x512 .bf16)
    (x6 : FVec Ideal S1x512 .f32) (x7 : FVec Ideal S512x1 .bf16) (x8 : FVec Ideal S1x1 .f32) :
    k0_pay1 (F := Ideal) (k0_pay4 (F := Ideal) x0 x1 x2 x3 x4 x5) x6 x7 x8 = mlp4 x0 x1 x2 x3 x4 x5 x6 x7 x8 := by
  unfold k0_pay1 k0_pay4 k0_pay2
  dsimp only
  simp only [shapeCast_self]
  rw [dot1_plain, dot2_plain, dot3_plain, dot4_plain]
  exact kernel_mlp4 none x0 x1 x2 x3 x4 x5 x6 x7 x8 _ _ _ _ _ _ _

/-- Putting the row's coordinate back into a row index of the block. -/
theorem lift_row (h : S1024x512.Reduces [1] S1024) (p : Fin 1024) (k : Fin 512) : h.lift (ix1 p) k = ix2 p k :=
  funext fun a => Fin.ext (by
    match a with
    | ⟨0, _⟩ => rfl
    | ⟨1, _⟩ => rfl)

/-- The second output block: the row statistic of the block of rows. -/
theorem cross_block (x0 : FVec Ideal S1024x512 .f32) (p : Fin 1024) (q : Fin 1) :
    k0_pay3 (F := Ideal) x0 (ix2 p q) = cross x0 p := by
  unfold k0_pay3 k0_pay2
  dsimp only
  simp only [shapeCast_self]
  exact kernel_cross x0 _ _ _ (lift_row _) _ p q

end Cert.KernelIdeal.Body

end
-- ==== Proof.Blocks.lean ====
/-
  The kernel's two result arrays after the sixteen grid points.

  Grid point t stages rows 1024·t … 1024·t + 1023 of the embedded batch and, at every point, the whole of each weight
  matrix and bias row. It writes back rows 1024·t … 1024·t + 1023 of each result. A dense layer and the row statistic
  act on each row by itself, so what point t writes back is block t of ONE function of the whole arrays: the four
  layers of the embedded batch for the first result, the row statistic for the second. The sixteen blocks tile the
  16384 rows, so each result array ends holding that function.
-/
import proofs.«163180_j37349035606580_2_alg».proof.Proof.Gen.KernelIdeal.Frame
import proofs.«163180_j37349035606580_2_alg».proof.Proof.Body
import Idealize.ShloMosaic.Lib.Pipeline.Value

noncomputable section

open scoped BigOperators

namespace Cert.KernelIdeal.Blocks

open Cert.KernelIdeal Cert.KernelIdeal.Gen Cert.KernelIdeal.Body Idealize.ShloMosaic Idealize.ShloMosaic.TcCoe Idealize.SL.Sem
open Idealize.ShloMosaic.ValueIdx Cert.Dense
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The index maps, decided over the sixteen points -/

/-- The row windows — the embedded batch and the two results — are at block (t, 0) at point t. -/
theorem idx_w0 : ∀ t : Fin cfg0.N, win0_0.index t (0 : Fin 2) = t.val ∧ win0_0.index t (1 : Fin 2) = 0 :=
  (by decide +kernel : ∀ t : Fin grid0.N, _)
theorem idx_w9 : ∀ t : Fin cfg0.N, win0_9.index t (0 : Fin 2) = t.val ∧ win0_9.index t (1 : Fin 2) = 0 :=
  (by decide +kernel : ∀ t : Fin grid0.N, _)
theorem idx_w10 : ∀ t : Fin cfg0.N, win0_10.index t (0 : Fin 2) = t.val ∧ win0_10.index t (1 : Fin 2) = 0 :=
  (by decide +kernel : ∀ t : Fin grid0.N, _)
/-- The weights and the bias rows are at block (0, 0) at every point. -/
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)

/-! ## The staged blocks -/

/-- A weight's or a bias row's block is its whole array, at every point. -/
theorem blk1 (c : Dev nD) (t : Fin cfg0.N) : (iblk m c 1 t : FVec Ideal S512x2048 .bf16) = V m c main_v24 := by
  obtain ⟨e0, e1⟩ := idx_w1 t
  funext y
  have h : ((cfg0.win 1).blk t).view.emb y = y := by
    funext a; apply Fin.ext
    match a with
    | ⟨0, _⟩ => show win0_1.index t (0 : Fin 2) * 512 + 1 * (y 0).val = (y 0).val; omega
    | ⟨1, _⟩ => show win0_1.index t (1 : Fin 2) * 2048 + 1 * (y 1).val = (y 1).val; omega
  show V m c main_v24 (((cfg0.win 1).blk t).view.emb y) = V m c main_v24 y
  rw [h]

theorem blk2 (c : Dev nD) (t : Fin cfg0.N) : (iblk m c 2 t : FVec Ideal S1x2048 .f32) = V m c main_v28 := by
  obtain ⟨e0, e1⟩ := idx_w2 t
  funext y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 2048 + 1 * (y 1).val = (y 1).val; omega
  show V m c main_v28 (((cfg0.win 2).blk t).view.emb y) = V m c main_v28 y
  rw [h]

theorem blk3 (c : Dev nD) (t : Fin cfg0.N) : (iblk m c 3 t : FVec Ideal S2048x1024 .bf16) = V m c main_v25 := by
  obtain ⟨e0, e1⟩ := idx_w3 t
  funext y
  have h : ((cfg0.win 3).blk t).view.emb y = y := by
    funext a; apply Fin.ext
    match a with
    | ⟨0, _⟩ => show win0_3.index t (0 : Fin 2) * 2048 + 1 * (y 0).val = (y 0).val; omega
    | ⟨1, _⟩ => show win0_3.index t (1 : Fin 2) * 1024 + 1 * (y 1).val = (y 1).val; omega
  show V m c main_v25 (((cfg0.win 3).blk t).view.emb y) = V m c main_v25 y
  rw [h]

theorem blk4 (c : Dev nD) (t : Fin cfg0.N) : (iblk m c 4 t : FVec Ideal S1x1024 .f32) = V m c main_v29 := by
  obtain ⟨e0, e1⟩ := idx_w4 t
  funext y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 1024 + 1 * (y 1).val = (y 1).val; omega
  show V m c main_v29 (((cfg0.win 4).blk t).view.emb y) = V m c main_v29 y
  rw [h]

theorem blk5 (c : Dev nD) (t : Fin cfg0.N) : (iblk m c 5 t : FVec Ideal S1024x512 .bf16) = V m c main_v26 := by
  obtain ⟨e0, e1⟩ := idx_w5 t
  funext y
  have h : ((cfg0.win 5).blk t).view.emb y = y := by
    funext a; apply Fin.ext
    match a with
    | ⟨0, _⟩ => show win0_5.index t (0 : Fin 2) * 1024 + 1 * (y 0).val = (y 0).val; omega
    | ⟨1, _⟩ => show win0_5.index t (1 : Fin 2) * 512 + 1 * (y 1).val = (y 1).val; omega
  show V m c main_v26 (((cfg0.win 5).blk t).view.emb y) = V m c main_v26 y
  rw [h]

theorem blk6 (c : Dev nD) (t : Fin cfg0.N) : (iblk m c 6 t : FVec Ideal S1x512 .f32) = V m c main_v30 := by
  obtain ⟨e0, e1⟩ := idx_w6 t
  funext y
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 512 + 1 * (y 1).val = (y 1).val; omega
  show V m c main_v30 (((cfg0.win 6).blk t).view.emb y) = V m c main_v30 y
  rw [h]

theorem blk7 (c : Dev nD) (t : Fin cfg0.N) : (iblk m c 7 t : FVec Ideal S512x1 .bf16) = V m c main_v27 := by
  obtain ⟨e0, e1⟩ := idx_w7 t
  funext y
  have h : ((cfg0.win 7).blk t).view.emb y = y := by
    funext a; apply Fin.ext
    match a with
    | ⟨0, _⟩ => show win0_7.index t (0 : Fin 2) * 512 + 1 * (y 0).val = (y 0).val; omega
    | ⟨1, _⟩ => show win0_7.index t (1 : Fin 2) * 1 + 1 * (y 1).val = (y 1).val; omega
  show V m c main_v27 (((cfg0.win 7).blk t).view.emb y) = V m c main_v27 y
  rw [h]

theorem blk8 (c : Dev nD) (t : Fin cfg0.N) : (iblk m c 8 t : FVec Ideal S1x1 .f32) = V m c main_v31 := by
  obtain ⟨e0, e1⟩ := idx_w8 t
  funext y
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 1 + 1 * (y 1).val = (y 1).val; omega
  show V m c main_v31 (((cfg0.win 8).blk t).view.emb y) = V m c main_v31 y
  rw [h]

/-- Row p of point t's block is row 1024·t + p of the array. -/
def row (t : Fin cfg0.N) (p : Fin 1024) : Fin 16384 := ⟨t.val * 1024 + p.val, by
  have h : t.val < 16 := lt_of_lt_of_eq t.isLt N_0
  have := p.isLt
  omega⟩

/-- The embedded batch's block at point t is its rows 1024·t … 1024·t + 1023. -/
theorem blk0_apply (c : Dev nD) (t : Fin cfg0.N) (p : Fin 1024) (k : Fin 512) :
    (iblk m c 0 t : FVec Ideal S1024x512 .f32) (ix2 p k) = (V m c main_v8 : FVec Ideal S16384x512 .f32) (ix2 (row t p) k) := by
  obtain ⟨e0, e1⟩ := idx_w0 t
  have h : ((cfg0.win 0).blk t).view.emb (ix2 p k : S1024x512.Idx) = (ix2 (row t p) k : S16384x512.Idx) := by
    funext a; apply Fin.ext
    match a with
    | ⟨0, _⟩ => show win0_0.index t (0 : Fin 2) * 1024 + 1 * p.val = t.val * 1024 + p.val; omega
    | ⟨1, _⟩ => show win0_0.index t (1 : Fin 2) * 512 + 1 * k.val = k.val; omega
  show V m c main_v8 (((cfg0.win 0).blk t).view.emb (ix2 p k : S1024x512.Idx)) = V m c main_v8 (ix2 (row t p) k : S16384x512.Idx)
  rw [h]

/-! ## The two results as functions of the whole arrays -/

/-- The first result: the four layers of the embedded batch. -/
def layersOut (c : Dev nD) : FVec Ideal S16384x1 .f32 :=
  mlp4 (M := 16384) (D0 := 512) (D1 := 2048) (D2 := 1024) (D3 := 512) (D4 := 1) (V m c main_v8) (V m c main_v24) (V m c main_v28) (V m c main_v25) (V m c main_v29) (V m c main_v26) (V m c main_v30) (V m c main_v27) (V m c main_v31)

/-- The second result: the row statistic of the embedded batch, kept as a column. -/
def crossOut (c : Dev nD) : FVec Ideal S16384x1 .f32 :=
  fun i => cross (M := 16384) (K := 512) (V m c main_v8) (i 0)

/-- What point t writes back to the first result is block t of the four layers of the whole batch. -/
theorem flushed9_eq (c : Dev nD) (t : Fin cfg0.N) :
    (dats m 0 c).flushed 9 t = ((cfg0.win 9).blk t).view.read (Elt Ideal) (layersOut m c) := by
  show (cfg0.win 9).cut (grid0.coords t) ((dats m 0 c).after 9 t) = _
  rw [after0_9]
  unfold out0_9
  rw [View.canon_unit_zero hz]
  simp only [View.ld_unit_zero (S := S1024x512) hz, View.ld_unit_zero (S := S512x2048) hz, View.ld_unit_zero (S := S1x2048) hz,
    View.ld_unit_zero (S := S2048x1024) hz, View.ld_unit_zero (S := S1x1024) hz, View.ld_unit_zero (S := S1x512) hz,
    View.ld_unit_zero (S := S512x1) hz, View.ld_unit_zero (S := S1x1) hz]
  rw [layers_block, blk1 m c t, blk2 m c t, blk3 m c t, blk4 m c t, blk5 m c t, blk6 m c t, blk7 m c t, blk8 m c t]
  obtain ⟨f0, f1⟩ := idx_w9 t
  funext j
  obtain ⟨p, q, rfl⟩ : ∃ (p : Fin 1024) (q : Fin 1), j = ix2 p q := ⟨j 0, j 1, eq_ix2 j⟩
  have h : ((cfg0.win 9).blk t).view.emb (ix2 p q : S1024x1.Idx) = (ix2 (row t p) q : S16384x1.Idx) := by
    funext a; apply Fin.ext
    match a with
    | ⟨0, _⟩ => show win0_9.index t (0 : Fin 2) * 1024 + 1 * p.val = t.val * 1024 + p.val; omega
    | ⟨1, _⟩ => show win0_9.index t (1 : Fin 2) * 1 + 1 * q.val = q.val; omega
  show mlp4 (M := 1024) (iblk m c 0 t) (V m c main_v24) (V m c main_v28) (V m c main_v25) (V m c main_v29) (V m c main_v26) (V m c main_v30) (V m c main_v27) (V m c main_v31) (ix2 p q)
      = layersOut m c (((cfg0.win 9).blk t).view.emb (ix2 p q : S1024x1.Idx))
  rw [h]
  exact mlp4_rows (V m c main_v8) (iblk m c 0 t) _ _ _ _ _ _ _ _ (row t) (fun p k => blk0_apply m c t p k) p q

/-- What point t writes back to the second result is block t of the row statistic of the whole batch. -/
theorem flushed10_eq (c : Dev nD) (t : Fin cfg0.N) :
    (dats m 0 c).flushed 10 t = ((cfg0.win 10).blk t).view.read (Elt Ideal) (crossOut m c) := by
  show (cfg0.win 10).cut (grid0.coords t) ((dats m 0 c).after 10 t) = _
  rw [after0_10]
  unfold out0_10
  rw [View.canon_unit_zero hz]
  simp only [View.ld_unit_zero (S := S1024x512) hz]
  obtain ⟨f0, f1⟩ := idx_w10 t
  funext j
  obtain ⟨p, q, rfl⟩ : ∃ (p : Fin 1024) (q : Fin 1), j = ix2 p q := ⟨j 0, j 1, eq_ix2 j⟩
  have h : ((cfg0.win 10).blk t).view.emb (ix2 p q : S1024x1.Idx) = (ix2 (row t p) q : S16384x1.Idx) := by
    funext a; apply Fin.ext
    match a with
    | ⟨0, _⟩ => show win0_10.index t (0 : Fin 2) * 1024 + 1 * p.val = t.val * 1024 + p.val; omega
    | ⟨1, _⟩ => show win0_10.index t (1 : Fin 2) * 1 + 1 * q.val = q.val; omega
  show k0_pay3 (F := Ideal) (iblk m c 0 t) (ix2 p q) = crossOut m c (((cfg0.win 10).blk t).view.emb (ix2 p q : S1024x1.Idx))
  rw [h, cross_block]
  exact cross_rows (V m c main_v8) (iblk m c 0 t) (row t) (fun p k => blk0_apply m c t p k) p

/-! ## The sixteen row blocks tile the 16384 rows -/

/-- Row r is in the block of point r / 1024. -/
def pointOf (i : S16384x1.Idx) : Fin cfg0.N := ⟨(i 0).val / 1024,
  lt_of_lt_of_eq (by have : (i 0).val < 16384 := (i 0).isLt; omega : (i 0).val / 1024 < 16) N_0.symm⟩

theorem mem_blk9 (t : Fin cfg0.N) (i : S16384x1.Idx) :
    i ∈ ((cfg0.win 9).blk t).view.set ↔ ∀ a : Fin 2, win0_9.index t a * S1024x1.size a ≤ (i a).val ∧ (i a).val < win0_9.index t a * S1024x1.size a + S1024x1.size a := by
  show i ∈ ((View.whole main_v32_0).slice (win0_9.rect t)).set ↔ _
  rw [View.set_slice_whole, Rect.mem_set_unit]
  exact Iff.rfl

theorem mem_blk10 (t : Fin cfg0.N) (i : S16384x1.Idx) :
    i ∈ ((cfg0.win 10).blk t).view.set ↔ ∀ a : Fin 2, win0_10.index t a * S1024x1.size a ≤ (i a).val ∧ (i a).val < win0_10.index t a * S1024x1.size a + S1024x1.size a := by
  show i ∈ ((View.whole main_v32_1).slice (win0_10.rect t)).set ↔ _
  rw [View.set_slice_whole, Rect.mem_set_unit]
  exact Iff.rfl

theorem cover9 (i : S16384x1.Idx) : ∃ t : Fin cfg0.N, (cfg0.win 9).flush t = true ∧ i ∈ ((cfg0.win 9).blk t).view.set := by
  refine ⟨pointOf i, flush0_9 _, ?_⟩
  rw [mem_blk9]
  obtain ⟨f0, f1⟩ := idx_w9 (pointOf i)
  have h0 : (i 0).val < 16384 := (i 0).isLt
  have h1 : (i 1).val < 1 := (i 1).isLt
  have hp : (pointOf i).val = (i 0).val / 1024 := rfl
  intro a
  match a with
  | ⟨0, _⟩ => show win0_9.index (pointOf i) (0 : Fin 2) * 1024 ≤ (i 0).val ∧ (i 0).val < win0_9.index (pointOf i) (0 : Fin 2) * 1024 + 1024; omega
  | ⟨1, _⟩ => show win0_9.index (pointOf i) (1 : Fin 2) * 1 ≤ (i 1).val ∧ (i 1).val < win0_9.index (pointOf i) (1 : Fin 2) * 1 + 1; omega

theorem cover10 (i : S16384x1.Idx) : ∃ t : Fin cfg0.N, (cfg0.win 10).flush t = true ∧ i ∈ ((cfg0.win 10).blk t).view.set := by
  refine ⟨pointOf i, flush0_10 _, ?_⟩
  rw [mem_blk10]
  obtain ⟨f0, f1⟩ := idx_w10 (pointOf i)
  have h0 : (i 0).val < 16384 := (i 0).isLt
  have h1 : (i 1).val < 1 := (i 1).isLt
  have hp : (pointOf i).val = (i 0).val / 1024 := rfl
  intro a
  match a with
  | ⟨0, _⟩ => show win0_10.index (pointOf i) (0 : Fin 2) * 1024 ≤ (i 0).val ∧ (i 0).val < win0_10.index (pointOf i) (0 : Fin 2) * 1024 + 1024; omega
  | ⟨1, _⟩ => show win0_10.index (pointOf i) (1 : Fin 2) * 1 ≤ (i 1).val ∧ (i 1).val < win0_10.index (pointOf i) (1 : Fin 2) * 1 + 1; omega

/-! ## The final arrays -/

/-- The first result array ends holding the four layers of the embedded batch. -/
theorem final9 (c : Dev nD) : (dats m 0 c).arrAt 9 cfg0.N = layersOut m c :=
  (dats m 0 c).arrAt_eq_of_cover 9 (layersOut m c) (fun t _ => flushed9_eq m c t) cover9

/-- The second result array ends holding the row statistic of the embedded batch. -/
theorem final10 (c : Dev nD) : (dats m 0 c).arrAt 10 cfg0.N = crossOut m c :=
  (dats m 0 c).arrAt_eq_of_cover 10 (crossOut m c) (fun t _ => flushed10_eq m c t) cover10

end Cert.KernelIdeal.Blocks

end
-- ==== Proof.KHost.lean ====
/-
  The host operations around the kernel's region.

  Before the region the program turns the category ids into integers, gathers for each batch row the embedding rows of its
  four ids and lays them side by side (the embedded batch), gathers and sums the four linear weights of the offset ids
  (the linear term), changes the weight matrices' float format and lays each bias out as a one-row matrix. After the
  region it sums the second result over all its entries, halves the sum, adds the bias, the linear term and that half-sum,
  lays the sums out as a column, adds the first result and applies the logistic function 1 / (1 + exp(−z)).
  Each stretch is named here as one function of what it reads, so that later steps never open it.
-/
import proofs.«163180_j37349035606580_2_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The embedded batch: for each batch row the embedding rows of its four category ids (an id below zero wrapped by the
    table's height), side by side. -/
def embedOf (a0 : (⟨S16384x4, .f32⟩ : BufTy).Contents (Elt F)) (a3 : (⟨S38279x128, .f32⟩ : BufTy).Contents (Elt F)) : (⟨S16384x512, .f32⟩ : BufTy).Contents (Elt F) :=
  (shapeCast S16384x512 (((fun x i => Host.gather gather_S38279x128_S16384x4x1_S16384x4x128_2_0_n_n_0_2_1128 x i) : (⟨S38279x128, .f32⟩ : BufTy).Contents (Elt F) → (⟨S16384x4x1, .i32⟩ : BufTy).Contents (Elt F) → (⟨S16384x4x128, .f32⟩ : BufTy).Contents (Elt F)) a3 ((broadcastInDim S16384x4x1 ![0, 1] bcast_S16384x4_S16384x4x1_0_1 : (⟨S16384x4, .i32⟩ : BufTy).Contents (Elt F) → (⟨S16384x4x1, .i32⟩ : BufTy).Contents (Elt F)) ((select : (⟨S16384x4, .i1⟩ : BufTy).Contents (Elt F) → (⟨S16384x4, .i32⟩ : BufTy).Contents (Elt F) → (⟨S16384x4, .i32⟩ : BufTy).Contents (Elt F) → (⟨S16384x4, .i32⟩ : BufTy).Contents (Elt F)) ((cmpi .slt : (⟨S16384x4, .i32⟩ : BufTy).Contents (Elt F) → (⟨S16384x4, .i32⟩ : BufTy).Contents (Elt F) → (⟨S16384x4, .i1⟩ : BufTy).Contents (Elt F)) ((fptosi 32 : (⟨S16384x4, .f32⟩ : BufTy).Contents (Elt F) → (⟨S16384x4, .i32⟩ : BufTy).Contents (Elt F)) a0) ((broadcastInDim S16384x4 ![] bcast_S_S16384x4 : (⟨S_, .i32⟩ : BufTy).Contents (Elt F) → (⟨S16384x4, .i32⟩ : BufTy).Contents (Elt F)) ((constantI S_ 32 0#32)))) ((addi : (⟨S16384x4, .i32⟩ : BufTy).Contents (Elt F) → (⟨S16384x4, .i32⟩ : BufTy).Contents (Elt F) → (⟨S16384x4, .i32⟩ : BufTy).Contents (Elt F)) ((fptosi 32 : (⟨S16384x4, .f32⟩ : BufTy).Contents (Elt F) → (⟨S16384x4, .i32⟩ : BufTy).Contents (Elt F)) a0) ((broadcastInDim S16384x4 ![] bcast_S_S16384x4 : (⟨S_, .i32⟩ : BufTy).Contents (Elt F) → (⟨S16384x4, .i32⟩ : BufTy).Contents (Elt F)) ((constantI S_ 32 38279#32)))) ((fptosi 32 : (⟨S16384x4, .f32⟩ : BufTy).Contents (Elt F) → (⟨S16384x4, .i32⟩ : BufTy).Contents (Elt F)) a0)))) shapeCasts_S16384x4x128_S16384x512)

/-- The linear term: for each batch row the sum of the linear weights at its four ids, each offset by its field's start. -/
def linOf (a0 : (⟨S16384x4, .f32⟩ : BufTy).Contents (Elt F)) (a2 : (⟨S38279x1, .f32⟩ : BufTy).Contents (Elt F)) : (⟨S16384, .f32⟩ : BufTy).Contents (Elt F) :=
  (((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)) (((fun x i => Host.gather gather_S38279x1_S16384x4x2_S16384x4_n_01_n_n_01_2_11 x i) : (⟨S38279x1, .f32⟩ : BufTy).Contents (Elt F) → (⟨S16384x4x2, .i32⟩ : BufTy).Contents (Elt F) → (⟨S16384x4, .f32⟩ : BufTy).Contents (Elt F)) a2 (((fun a b => concatenate S16384x4x2 2 [⟨S16384x4x1, a⟩, ⟨S16384x4x1, b⟩] concatenates_S16384x4x1_S16384x4x1_S16384x4x2_d2) : (⟨S16384x4x1, .i32⟩ : BufTy).Contents (Elt F) → (⟨S16384x4x1, .i32⟩ : BufTy).Contents (Elt F) → (⟨S16384x4x2, .i32⟩ : BufTy).Contents (Elt F)) ((broadcastInDim S16384x4x1 ![0, 1] bcast_S16384x4_S16384x4x1_0_1 : (⟨S16384x4, .i32⟩ : BufTy).Contents (Elt F) → (⟨S16384x4x1, .i32⟩ : BufTy).Contents (Elt F)) ((select : (⟨S16384x4, .i1⟩ : BufTy).Contents (Elt F) → (⟨S16384x4, .i32⟩ : BufTy).Contents (Elt F) → (⟨S16384x4, .i32⟩ : BufTy).Contents (Elt F) → (⟨S16384x4, .i32⟩ : BufTy).Contents (Elt F)) ((cmpi .slt : (⟨S16384x4, .i32⟩ : BufTy).Contents (Elt F) → (⟨S16384x4, .i32⟩ : BufTy).Contents (Elt F) → (⟨S16384x4, .i1⟩ : BufTy).Contents (Elt F)) ((addi : (⟨S16384x4, .i32⟩ : BufTy).Contents (Elt F) → (⟨S16384x4, .i32⟩ : BufTy).Contents (Elt F) → (⟨S16384x4, .i32⟩ : BufTy).Contents (Elt F)) ((fptosi 32 : (⟨S16384x4, .f32⟩ : BufTy).Contents (Elt F) → (⟨S16384x4, .i32⟩ : BufTy).Contents (Elt F)) a0) ((broadcastInDim S16384x4 ![0, 1] bcast_S1x4_S16384x4_0_1 : (⟨S1x4, .i32⟩ : BufTy).Contents (Elt F) → (⟨S16384x4, .i32⟩ : BufTy).Contents (Elt F)) ((broadcastInDim S1x4 ![1] bcast_S4_S1x4_1 : (⟨S4, .i32⟩ : BufTy).Contents (Elt F) → (⟨S1x4, .i32⟩ : BufTy).Contents (Elt F)) ((fun i => lit0 (S4.rowMajor i)))))) ((broadcastInDim S16384x4 ![] bcast_S_S16384x4 : (⟨S_, .i32⟩ : BufTy).Contents (Elt F) → (⟨S16384x4, .i32⟩ : BufTy).Contents (Elt F)) ((constantI S_ 32 0#32)))) ((addi : (⟨S16384x4, .i32⟩ : BufTy).Contents (Elt F) → (⟨S16384x4, .i32⟩ : BufTy).Contents (Elt F) → (⟨S16384x4, .i32⟩ : BufTy).Contents (Elt F)) ((addi : (⟨S16384x4, .i32⟩ : BufTy).Contents (Elt F) → (⟨S16384x4, .i32⟩ : BufTy).Contents (Elt F) → (⟨S16384x4, .i32⟩ : BufTy).Contents (Elt F)) ((fptosi 32 : (⟨S16384x4, .f32⟩ : BufTy).Contents (Elt F) → (⟨S16384x4, .i32⟩ : BufTy).Contents (Elt F)) a0) ((broadcastInDim S16384x4 ![0, 1] bcast_S1x4_S16384x4_0_1 : (⟨S1x4, .i32⟩ : BufTy).Contents (Elt F) → (⟨S16384x4, .i32⟩ : BufTy).Contents (Elt F)) ((broadcastInDim S1x4 ![1] bcast_S4_S1x4_1 : (⟨S4, .i32⟩ : BufTy).Contents (Elt F) → (⟨S1x4, .i32⟩ : BufTy).Contents (Elt F)) ((fun i => lit0 (S4.rowMajor i)))))) ((broadcastInDim S16384x4 ![] bcast_S_S16384x4 : (⟨S_, .i32⟩ : BufTy).Contents (Elt F) → (⟨S16384x4, .i32⟩ : BufTy).Contents (Elt F)) ((constantI S_ 32 38279#32)))) ((addi : (⟨S16384x4, .i32⟩ : BufTy).Contents (Elt F) → (⟨S16384x4, .i32⟩ : BufTy).Contents (Elt F) → (⟨S16384x4, .i32⟩ : BufTy).Contents (Elt F)) ((fptosi 32 : (⟨S16384x4, .f32⟩ : BufTy).Contents (Elt F) → (⟨S16384x4, .i32⟩ : BufTy).Contents (Elt F)) a0) ((broadcastInDim S16384x4 ![0, 1] bcast_S1x4_S16384x4_0_1 : (⟨S1x4, .i32⟩ : BufTy).Contents (Elt F) → (⟨S16384x4, .i32⟩ : BufTy).Contents (Elt F)) ((broadcastInDim S1x4 ![1] bcast_S4_S1x4_1 : (⟨S4, .i32⟩ : BufTy).Contents (Elt F) → (⟨S1x4, .i32⟩ : BufTy).Contents (Elt F)) ((fun i => lit0 (S4.rowMajor i)))))))) ((broadcastInDim S16384x4x1 ![0, 1] bcast_S16384x4_S16384x4x1_0_1 : (⟨S16384x4, .i32⟩ : BufTy).Contents (Elt F) → (⟨S16384x4x1, .i32⟩ : BufTy).Contents (Elt F)) ((id : (⟨S16384x4, .i32⟩ : BufTy).Contents (Elt F) → (⟨S16384x4, .i32⟩ : BufTy).Contents (Elt F)) ((broadcastInDim S16384x4 ![] bcast_S_S16384x4 : (⟨S_, .i32⟩ : BufTy).Contents (Elt F) → (⟨S16384x4, .i32⟩ : BufTy).Contents (Elt F)) ((constantI S_ 32 0#32))))))) ((constant S_ .f32 0x00000000#32)))

/-- The sum before the logistic function: bias + linear term + half the total of the row statistic, as a column, plus
    the four layers' result. -/
def preZ (bias : (⟨S1, .f32⟩ : BufTy).Contents (Elt F)) (lin : (⟨S16384, .f32⟩ : BufTy).Contents (Elt F)) (fm : (⟨S16384x1, .f32⟩ : BufTy).Contents (Elt F)) (y : (⟨S16384x1, .f32⟩ : BufTy).Contents (Elt F)) :
    (⟨S16384x1, .f32⟩ : BufTy).Contents (Elt F) :=
  ((addf : (⟨S16384x1, .f32⟩ : BufTy).Contents (Elt F) → (⟨S16384x1, .f32⟩ : BufTy).Contents (Elt F) → (⟨S16384x1, .f32⟩ : BufTy).Contents (Elt F)) (shapeCast S16384x1 ((addf : (⟨S16384, .f32⟩ : BufTy).Contents (Elt F) → (⟨S16384, .f32⟩ : BufTy).Contents (Elt F) → (⟨S16384, .f32⟩ : BufTy).Contents (Elt F)) ((addf : (⟨S16384, .f32⟩ : BufTy).Contents (Elt F) → (⟨S16384, .f32⟩ : BufTy).Contents (Elt F) → (⟨S16384, .f32⟩ : BufTy).Contents (Elt F)) ((broadcastInDim S16384 ![] bcast_S_S16384 : (⟨S_, .f32⟩ : BufTy).Contents (Elt F) → (⟨S16384, .f32⟩ : BufTy).Contents (Elt F)) (shapeCast S_ bias shapeCasts_S1_S_)) lin) ((broadcastInDim S16384 ![] bcast_S_S16384 : (⟨S_, .f32⟩ : BufTy).Contents (Elt F) → (⟨S16384, .f32⟩ : BufTy).Contents (Elt F)) ((mulf : (⟨S_, .f32⟩ : BufTy).Contents (Elt F) → (⟨S_, .f32⟩ : BufTy).Contents (Elt F) → (⟨S_, .f32⟩ : BufTy).Contents (Elt F)) ((constant S_ .f32 0x3F000000#32)) (((fun x v => Host.reduceAdd x v reducesTo_S16384x1_S_d0_1 h_S_) : (⟨S16384x1, .f32⟩ : BufTy).Contents (Elt F) → (⟨S_, .f32⟩ : BufTy).Contents (Elt F) → (⟨S_, .f32⟩ : BufTy).Contents (Elt F)) fm ((constant S_ .f32 0x00000000#32)))))) shapeCasts_S16384_S16384x1) y)

/-- The logistic function, entry by entry: 1 / (1 + exp(−z)). -/
def logistic (z : (⟨S16384x1, .f32⟩ : BufTy).Contents (Elt F)) : (⟨S16384x1, .f32⟩ : BufTy).Contents (Elt F) :=
  ((Host.divf : (⟨S16384x1, .f32⟩ : BufTy).Contents (Elt F) → (⟨S16384x1, .f32⟩ : BufTy).Contents (Elt F) → (⟨S16384x1, .f32⟩ : BufTy).Contents (Elt F)) ((broadcastInDim S16384x1 ![] bcast_S_S16384x1 : (⟨S_, .f32⟩ : BufTy).Contents (Elt F) → (⟨S16384x1, .f32⟩ : BufTy).Contents (Elt F)) ((constant S_ .f32 0x3F800000#32))) ((addf : (⟨S16384x1, .f32⟩ : BufTy).Contents (Elt F) → (⟨S16384x1, .f32⟩ : BufTy).Contents (Elt F) → (⟨S16384x1, .f32⟩ : BufTy).Contents (Elt F)) ((broadcastInDim S16384x1 ![] bcast_S_S16384x1 : (⟨S_, .f32⟩ : BufTy).Contents (Elt F) → (⟨S16384x1, .f32⟩ : BufTy).Contents (Elt F)) ((constant S_ .f32 0x3F800000#32))) ((Host.exp : (⟨S16384x1, .f32⟩ : BufTy).Contents (Elt F) → (⟨S16384x1, .f32⟩ : BufTy).Contents (Elt F)) ((Host.negf : (⟨S16384x1, .f32⟩ : BufTy).Contents (Elt F) → (⟨S16384x1, .f32⟩ : BufTy).Contents (Elt F)) z))))

/-! ## What the region finds -/

/-- The region finds the embedded batch in its first window's array. -/
theorem at_v8 (m : (ℓ : Loc nD τ sig) → Buf (Elt F) ℓ) (c : Dev nD) :
    V m c main_v8 = embedOf (m ((c : Thread nD τ).loc main_arg0)) (m ((c : Thread nD τ).loc main_arg3)) := by
  show StableHlo.after hostOps0 (fun b => m (c, b)) (Proc.devRef .tc main_v8) = _
  after_results_simp <;> rfl

/-- The linear term is computed before the region and read after it. -/
theorem at_v23 (m : (ℓ : Loc nD τ sig) → Buf (Elt F) ℓ) (c : Dev nD) :
    V m c main_v23 = linOf (m ((c : Thread nD τ).loc main_arg0)) (m ((c : Thread nD τ).loc main_arg2)) := by
  show StableHlo.after hostOps0 (fun b => m (c, b)) (Proc.devRef .tc main_v23) = _
  after_results_simp <;> rfl

/-- The region finds `main_v24` at this function of argument 4. -/
theorem at_v24 (m : (ℓ : Loc nD τ sig) → Buf (Elt F) ℓ) (c : Dev nD) :
    V m c main_v24 = (((truncf .bf16 · bitsLt_bf16_f32) : (⟨S512x2048, .f32⟩ : BufTy).Contents (Elt F) → (⟨S512x2048, .bf16⟩ : BufTy).Contents (Elt F)) (m ((c : Thread nD τ).loc main_arg4))) := by
  show StableHlo.after hostOps0 (fun b => m (c, b)) (Proc.devRef .tc main_v24) = _
  after_results_simp <;> rfl

/-- The region finds `main_v25` at this function of argument 6. -/
theorem at_v25 (m : (ℓ : Loc nD τ sig) → Buf (Elt F) ℓ) (c : Dev nD) :
    V m c main_v25 = (((truncf .bf16 · bitsLt_bf16_f32) : (⟨S2048x1024, .f32⟩ : BufTy).Contents (Elt F) → (⟨S2048x1024, .bf16⟩ : BufTy).Contents (Elt F)) (m ((c : Thread nD τ).loc main_arg6))) := by
  show StableHlo.after hostOps0 (fun b => m (c, b)) (Proc.devRef .tc main_v25) = _
  after_results_simp <;> rfl

/-- The region finds `main_v26` at this function of argument 8. -/
theorem at_v26 (m : (ℓ : Loc nD τ sig) → Buf (Elt F) ℓ) (c : Dev nD) :
    V m c main_v26 = (((truncf .bf16 · bitsLt_bf16_f32) : (⟨S1024x512, .f32⟩ : BufTy).Contents (Elt F) → (⟨S1024x512, .bf16⟩ : BufTy).Contents (Elt F)) (m ((c : Thread nD τ).loc main_arg8))) := by
  show StableHlo.after hostOps0 (fun b => m (c, b)) (Proc.devRef .tc main_v26) = _
  after_results_simp <;> rfl

/-- The region finds `main_v27` at this function of argument 10. -/
theorem at_v27 (m : (ℓ : Loc nD τ sig) → Buf (Elt F) ℓ) (c : Dev nD) :
    V m c main_v27 = (((truncf .bf16 · bitsLt_bf16_f32) : (⟨S512x1, .f32⟩ : BufTy).Contents (Elt F) → (⟨S512x1, .bf16⟩ : BufTy).Contents (Elt F)) (m ((c : Thread nD τ).loc main_arg10))) := by
  show StableHlo.after hostOps0 (fun b => m (c, b)) (Proc.devRef .tc main_v27) = _
  after_results_simp <;> rfl

/-- The region finds `main_v28` at this function of argument 5. -/
theorem at_v28 (m : (ℓ : Loc nD τ sig) → Buf (Elt F) ℓ) (c : Dev nD) :
    V m c main_v28 = (shapeCast S1x2048 (m ((c : Thread nD τ).loc main_arg5)) shapeCasts_S2048_S1x2048) := by
  show StableHlo.after hostOps0 (fun b => m (c, b)) (Proc.devRef .tc main_v28) = _
  after_results_simp <;> rfl

/-- The region finds `main_v29` at this function of argument 7. -/
theorem at_v29 (m : (ℓ : Loc nD τ sig) → Buf (Elt F) ℓ) (c : Dev nD) :
    V m c main_v29 = (shapeCast S1x1024 (m ((c : Thread nD τ).loc main_arg7)) shapeCasts_S1024_S1x1024) := by
  show StableHlo.after hostOps0 (fun b => m (c, b)) (Proc.devRef .tc main_v29) = _
  after_results_simp <;> rfl

/-- The region finds `main_v30` at this function of argument 9. -/
theorem at_v30 (m : (ℓ : Loc nD τ sig) → Buf (Elt F) ℓ) (c : Dev nD) :
    V m c main_v30 = (shapeCast S1x512 (m ((c : Thread nD τ).loc main_arg9)) shapeCasts_S512_S1x512) := by
  show StableHlo.after hostOps0 (fun b => m (c, b)) (Proc.devRef .tc main_v30) = _
  after_results_simp <;> rfl

/-- The region finds `main_v31` at this function of argument 11. -/
theorem at_v31 (m : (ℓ : Loc nD τ sig) → Buf (Elt F) ℓ) (c : Dev nD) :
    V m c main_v31 = (shapeCast S1x1 (m ((c : Thread nD τ).loc main_arg11)) shapeCasts_S1_S1x1) := by
  show StableHlo.after hostOps0 (fun b => m (c, b)) (Proc.devRef .tc main_v31) = _
  after_results_simp <;> rfl

/-! ## The operations after the region -/

/-- The operations after the region, run from any contents, leave the result at the logistic function of the sum of what
    they read: the bias, the linear term and the region's two result arrays. -/
theorem tail_result (W : Valuation τ sig (Elt F)) :
    StableHlo.after hostOps1 W (Proc.devRef .tc main_v47)
      = logistic (preZ (W (Proc.devRef .tc main_arg1)) (W (Proc.devRef .tc main_v23)) (W (Proc.devRef .tc main_v32_1)) (W (Proc.devRef .tc main_v32_0))) := by
  after_results
  rfl

end Cert.KernelIdeal.HostSide

end
-- ==== Proof.KValue.lean ====
/-
  The kernel's program, read: its result as one function of its arguments.

  After the run the first result array holds the four dense layers of the embedded batch and the second its row statistic
  (the sixteen row blocks tile both arrays); the operations after the region read those two arrays, the bias and the
  linear term. So the program's result is the logistic function of bias + linear term + half the statistic's total + the
  four layers, with the embedded batch, the linear term, the weights and the bias rows the functions of the arguments
  that the operations before the region compute. The arguments end unchanged.
-/
import proofs.«163180_j37349035606580_2_alg».proof.Proof.Blocks
import proofs.«163180_j37349035606580_2_alg».proof.Proof.KHost

noncomputable section

namespace Cert.KernelIdeal.Whole

open Cert.KernelIdeal Cert.KernelIdeal.Gen Cert.KernelIdeal.Blocks Cert.KernelIdeal.HostSide
open Idealize.ShloMosaic Idealize.ShloMosaic.TcCoe Idealize.SL.Sem Idealize.ShloMosaic.ValueIdx Cert.Dense

variable (m : (ℓ : Loc nD τ sig) → Buf (Elt Ideal) ℓ) (ρ : Dev nD → PrngReg)

/-- The program's result on core c, in terms of the arrays the region finds. -/
def out (c : Dev nD) : Buf (Elt Ideal) ((c : Thread nD τ).loc main_v47) :=
  HostSide.logistic (F := Ideal) (HostSide.preZ (F := Ideal) (m ((c : Thread nD τ).loc main_arg1)) (V m c main_v23) (crossOut m c) (layersOut m c))

/-- What the operations after the region leave at the result buffer. -/
theorem tail_out (c : Dev nD) :
    Pipeline.afterTail₀ cfgs (dats m) 0 (V0 m) [hostOps1] c main_v47 = out m c := by
  unfold Pipeline.afterTail₀
  refine (tail_result (F := Ideal) _).trans ?_
  unfold out
  refine congrArg (HostSide.logistic (F := Ideal)) ?_
  refine congr (congr (congr (congrArg (HostSide.preZ (F := Ideal)) ?_) ?_) ?_) ?_
  · exact (Pipeline.withArrays_of_ne _ c (V0 m c) _ main_arg1 (by exact (by decide : ∀ w, Pipeline.arrRef spec0 w ≠ main_arg1))).trans (V_main_arg1 m c)
  · exact Pipeline.withArrays_of_ne _ c (V0 m c) _ main_v23 (by exact (by decide : ∀ w, Pipeline.arrRef spec0 w ≠ main_v23))
  · exact (Pipeline.withArrays_arr spec0 launch0.win.arr_inj c _ _ 10).trans (final10 m c)
  · exact (Pipeline.withArrays_arr spec0 launch0.win.arr_inj c _ _ 9).trans (final9 m c)

/-- Every weakly fair execution of the kernel's program terminates with the result at `out` and the arguments unchanged. -/
theorem run : θ_run defs (onTc (τ := τ) (main (F := Ideal))) ⟨m, fun _ => 0, ρ⟩ fun r => ∀ c : Dev nD,
      r.2.mem ((c : Thread nD τ).loc main_v47) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).2 main_v47 (Pipeline.mem_restRefs_of main_v47 (by decide) (by decide))).trans (tail_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.Whole

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.Score.lean ====
/-
  The sum the logistic function is applied to.

  At entry (r, q) of the 16384×1 result: the bias, plus the linear term of row r, plus a constant times the total over all
  rows of a row statistic, plus the entry of the four layers' result. Both programs compute this sum in this order; they
  differ only in how the pieces are laid out on the way.
-/
import proofs.«163180_j37349035606580_2_alg».proof.Proof.LibDense

noncomputable section

open scoped BigOperators

namespace Cert.Dense

open Idealize.ShloMosaic Idealize.ShloMosaic.ValueIdx

variable {M : ℕ}

/-- Entry (r, q): bias + linear term of row r + half · (the statistic's total over the rows) + the layers' entry. -/
def score (half : EReal) (bias : Row 1) (lin : Row M) (stat : Fin M → EReal) (y : Mat M 1) : Mat M 1 :=
  fun i => ((bias (ix1 (0 : Fin 1)) + lin (ix1 (i 0))) + half * ∑ p : Fin M, stat p) + y i

end Cert.Dense

end
-- ==== Proof.KRead.lean ====
/-
  The kernel's sum before the logistic function, entry by entry.

  After the region the program lays the one-entry bias out as a scalar and broadcasts it over the batch, adds the linear
  term, adds half the total of the second result array (a scalar, broadcast), lays the sums out as a column and adds the
  first result array. At entry (r, q) that is bias + linear term of row r + half · total + the first result's entry.
-/
import proofs.«163180_j37349035606580_2_alg».proof.Proof.KHost
import proofs.«163180_j37349035606580_2_alg».proof.Proof.LibRowStat
import proofs.«163180_j37349035606580_2_alg».proof.Proof.LibColumn
import proofs.«163180_j37349035606580_2_alg».proof.Proof.Score

noncomputable section

open scoped BigOperators

namespace Cert.KernelIdeal.HostSide

open Cert.KernelIdeal Cert.KernelIdeal.Gen Idealize.ShloMosaic Idealize.ShloMosaic.ValueIdx Cert.Dense Cert.Layout

/-- The kernel's sum is the score of the bias, the linear term, the second result's rows and the first result. -/
theorem preZ_eq (bias : FVec Ideal S1 .f32) (lin : FVec Ideal S16384 .f32) (fm y : FVec Ideal S16384x1 .f32) :
    preZ (F := Ideal) bias lin fm y
      = score (Ideal.ofBits .f32 0x3F000000#32) bias lin (fun p => fm (ix2 p (0 : Fin 1))) y := by
  funext i
  obtain ⟨r, q, rfl⟩ : ∃ (r : Fin 16384) (q : Fin 1), i = ix2 r q := ⟨i 0, i 1, eq_ix2 i⟩
  unfold preZ
  dsimp only
  rw [addf_apply, cast_vec_col_apply, addf_apply, addf_apply, bcast_scalar_apply, bcast_scalar_apply, cast_one_scalar_apply,
    mulf_apply, constant_apply, hostTotal_col]
  rfl

end Cert.KernelIdeal.HostSide

end
-- ==== Proof.RefRun.lean ====
/-
  The reference's program as a straight line.

  The reference computes, on the host, the embedding rows of the four category ids of each batch row laid side by
  side, the linear term, the one batch-wide correction, four dense layers with the rectifier between them, and
  the logistic function of the sum. Its rectifier is a function of its own in the program; a call of it is the
  callee's three operations on the call's own buffers, so the whole program is one list of eighty-three host
  operations, and every weakly fair execution ends with each buffer at the fold of those operations over the
  contents the program was launched with.
-/
import proofs.«163180_j37349035606580_2_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The program's operations in order, each rectifier call replaced by the zero, its broadcast and the maximum. -/
abbrev ops : List (HloOp τ sig (Elt F)) :=
  [ StableHlo.nullary main_c (fun i => lit0 (S4.rowMajor i)),
    StableHlo.unary main_arg0 main_v0 (fptosi 32 : (⟨S16384x4, .f32⟩ : BufTy).Contents (Elt F) → (⟨S16384x4, .i32⟩ : BufTy).Contents (Elt F)),
    StableHlo.nullary main_c_0 (constantI S_ 32 0#32),
    StableHlo.unary main_c_0 main_v1 (broadcastInDim S16384x4 ![] bcast_S_S16384x4 : (⟨S_, .i32⟩ : BufTy).Contents (Elt F) → (⟨S16384x4, .i32⟩ : BufTy).Contents (Elt F)),
    StableHlo.binary main_v0 main_v1 main_v2 (cmpi .slt : (⟨S16384x4, .i32⟩ : BufTy).Contents (Elt F) → (⟨S16384x4, .i32⟩ : BufTy).Contents (Elt F) → (⟨S16384x4, .i1⟩ : BufTy).Contents (Elt F)),
    StableHlo.nullary main_c_1 (constantI S_ 32 38279#32),
    StableHlo.unary main_c_1 main_v3 (broadcastInDim S16384x4 ![] bcast_S_S16384x4 : (⟨S_, .i32⟩ : BufTy).Contents (Elt F) → (⟨S16384x4, .i32⟩ : BufTy).Contents (Elt F)),
    StableHlo.binary main_v0 main_v3 main_v4 (addi : (⟨S16384x4, .i32⟩ : BufTy).Contents (Elt F) → (⟨S16384x4, .i32⟩ : BufTy).Contents (Elt F) → (⟨S16384x4, .i32⟩ : BufTy).Contents (Elt F)),
    StableHlo.ternary main_v2 main_v4 main_v0 main_v5 (select : (⟨S16384x4, .i1⟩ : BufTy).Contents (Elt F) → (⟨S16384x4, .i32⟩ : BufTy).Contents (Elt F) → (⟨S16384x4, .i32⟩ : BufTy).Contents (Elt F) → (⟨S16384x4, .i32⟩ : BufTy).Contents (Elt F)),
    StableHlo.unary main_v5 main_v6 (broadcastInDim S16384x4x1 ![0, 1] bcast_S16384x4_S16384x4x1_0_1 : (⟨S16384x4, .i32⟩ : BufTy).Contents (Elt F) → (⟨S16384x4x1, .i32⟩ : BufTy).Contents (Elt F)),
    StableHlo.binary main_arg3 main_v6 main_v7 ((fun x i => Host.gather gather_S38279x128_S16384x4x1_S16384x4x128_2_0_n_n_0_2_1128 x i) : (⟨S38279x128, .f32⟩ : BufTy).Contents (Elt F) → (⟨S16384x4x1, .i32⟩ : BufTy).Contents (Elt F) → (⟨S16384x4x128, .f32⟩ : BufTy).Contents (Elt F)),
    StableHlo.reshape main_v7 main_v8 rfl shapeCasts_S16384x4x128_S16384x512,
    StableHlo.unary main_c main_v9 (broadcastInDim S1x4 ![1] bcast_S4_S1x4_1 : (⟨S4, .i32⟩ : BufTy).Contents (Elt F) → (⟨S1x4, .i32⟩ : BufTy).Contents (Elt F)),
    StableHlo.unary main_v9 main_v10 (broadcastInDim S16384x4 ![0, 1] bcast_S1x4_S16384x4_0_1 : (⟨S1x4, .i32⟩ : BufTy).Contents (Elt F) → (⟨S16384x4, .i32⟩ : BufTy).Contents (Elt F)),
    StableHlo.binary main_v0 main_v10 main_v11 (addi : (⟨S16384x4, .i32⟩ : BufTy).Contents (Elt F) → (⟨S16384x4, .i32⟩ : BufTy).Contents (Elt F) → (⟨S16384x4, .i32⟩ : BufTy).Contents (Elt F)),
    StableHlo.nullary main_c_2 (constantI S_ 32 0#32),
    StableHlo.unary main_c_2 main_v12 (broadcastInDim S16384x4 ![] bcast_S_S16384x4 : (⟨S_, .i32⟩ : BufTy).Contents (Elt F) → (⟨S16384x4, .i32⟩ : BufTy).Contents (Elt F)),
    StableHlo.binary main_v11 main_v12 main_v13 (cmpi .slt : (⟨S16384x4, .i32⟩ : BufTy).Contents (Elt F) → (⟨S16384x4, .i32⟩ : BufTy).Contents (Elt F) → (⟨S16384x4, .i1⟩ : BufTy).Contents (Elt F)),
    StableHlo.nullary main_c_3 (constantI S_ 32 38279#32),
    StableHlo.unary main_c_3 main_v14 (broadcastInDim S16384x4 ![] bcast_S_S16384x4 : (⟨S_, .i32⟩ : BufTy).Contents (Elt F) → (⟨S16384x4, .i32⟩ : BufTy).Contents (Elt F)),
    StableHlo.binary main_v11 main_v14 main_v15 (addi : (⟨S16384x4, .i32⟩ : BufTy).Contents (Elt F) → (⟨S16384x4, .i32⟩ : BufTy).Contents (Elt F) → (⟨S16384x4, .i32⟩ : BufTy).Contents (Elt F)),
    StableHlo.ternary main_v13 main_v15 main_v11 main_v16 (select : (⟨S16384x4, .i1⟩ : BufTy).Contents (Elt F) → (⟨S16384x4, .i32⟩ : BufTy).Contents (Elt F) → (⟨S16384x4, .i32⟩ : BufTy).Contents (Elt F) → (⟨S16384x4, .i32⟩ : BufTy).Contents (Elt F)),
    StableHlo.nullary main_c_4 (constantI S_ 32 0#32),
    StableHlo.unary main_c_4 main_v17 (broadcastInDim S16384x4 ![] bcast_S_S16384x4 : (⟨S_, .i32⟩ : BufTy).Contents (Elt F) → (⟨S16384x4, .i32⟩ : BufTy).Contents (Elt F)),
    StableHlo.unary main_v17 main_v18 (id : (⟨S16384x4, .i32⟩ : BufTy).Contents (Elt F) → (⟨S16384x4, .i32⟩ : BufTy).Contents (Elt F)),
    StableHlo.unary main_v16 main_v19 (broadcastInDim S16384x4x1 ![0, 1] bcast_S16384x4_S16384x4x1_0_1 : (⟨S16384x4, .i32⟩ : BufTy).Contents (Elt F) → (⟨S16384x4x1, .i32⟩ : BufTy).Contents (Elt F)),
    StableHlo.unary main_v18 main_v20 (broadcastInDim S16384x4x1 ![0, 1] bcast_S16384x4_S16384x4x1_0_1 : (⟨S16384x4, .i32⟩ : BufTy).Contents (Elt F) → (⟨S16384x4x1, .i32⟩ : BufTy).Contents (Elt F)),
    StableHlo.binary main_v19 main_v20 main_v21 ((fun a b => concatenate S16384x4x2 2 [⟨S16384x4x1, a⟩, ⟨S16384x4x1, b⟩] concatenates_S16384x4x1_S16384x4x1_S16384x4x2_d2) : (⟨S16384x4x1, .i32⟩ : BufTy).Contents (Elt F) → (⟨S16384x4x1, .i32⟩ : BufTy).Contents (Elt F) → (⟨S16384x4x2, .i32⟩ : BufTy).Contents (Elt F)),
    StableHlo.binary main_arg2 main_v21 main_v22 ((fun x i => Host.gather gather_S38279x1_S16384x4x2_S16384x4_n_01_n_n_01_2_11 x i) : (⟨S38279x1, .f32⟩ : BufTy).Contents (Elt F) → (⟨S16384x4x2, .i32⟩ : BufTy).Contents (Elt F) → (⟨S16384x4, .f32⟩ : BufTy).Contents (Elt F)),
    StableHlo.nullary main_cst (constant S_ .f32 0x00000000#32),
    StableHlo.binary main_v22 main_cst main_v23 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_arg1 main_v24 (broadcastInDim S16384 ![0] bcast_S1_S16384_0 : (⟨S1, .f32⟩ : BufTy).Contents (Elt F) → (⟨S16384, .f32⟩ : BufTy).Contents (Elt F)),
    StableHlo.binary main_v24 main_v23 main_v25 (addf : (⟨S16384, .f32⟩ : BufTy).Contents (Elt F) → (⟨S16384, .f32⟩ : BufTy).Contents (Elt F) → (⟨S16384, .f32⟩ : BufTy).Contents (Elt F)),
    StableHlo.nullary main_cst_5 (constant S_ .f32 0x00000000#32),
    StableHlo.binary main_v8 main_cst_5 main_v26 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.binary main_v26 main_v26 main_v27 (mulf : (⟨S16384, .f32⟩ : BufTy).Contents (Elt F) → (⟨S16384, .f32⟩ : BufTy).Contents (Elt F) → (⟨S16384, .f32⟩ : BufTy).Contents (Elt F)),
    StableHlo.binary main_v8 main_v8 main_v28 (mulf : (⟨S16384x512, .f32⟩ : BufTy).Contents (Elt F) → (⟨S16384x512, .f32⟩ : BufTy).Contents (Elt F) → (⟨S16384x512, .f32⟩ : BufTy).Contents (Elt F)),
    StableHlo.nullary main_cst_6 (constant S_ .f32 0x00000000#32),
    StableHlo.binary main_v28 main_cst_6 main_v29 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.binary main_v27 main_v29 main_v30 (subf : (⟨S16384, .f32⟩ : BufTy).Contents (Elt F) → (⟨S16384, .f32⟩ : BufTy).Contents (Elt F) → (⟨S16384, .f32⟩ : BufTy).Contents (Elt F)),
    StableHlo.nullary main_cst_7 (constant S_ .f32 0x00000000#32),
    StableHlo.binary main_v30 main_cst_7 main_v31 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.unary main_v31 main_v32 (broadcastInDim S1 ![] bcast_S_S1 : (⟨S_, .f32⟩ : BufTy).Contents (Elt F) → (⟨S1, .f32⟩ : BufTy).Contents (Elt F)),
    StableHlo.nullary main_cst_8 (constant S_ .f32 0x3F000000#32),
    StableHlo.unary main_cst_8 main_v33 (broadcastInDim S1 ![] bcast_S_S1 : (⟨S_, .f32⟩ : BufTy).Contents (Elt F) → (⟨S1, .f32⟩ : BufTy).Contents (Elt F)),
    StableHlo.binary main_v33 main_v32 main_v34 (mulf : (⟨S1, .f32⟩ : BufTy).Contents (Elt F) → (⟨S1, .f32⟩ : BufTy).Contents (Elt F) → (⟨S1, .f32⟩ : BufTy).Contents (Elt F)),
    StableHlo.unary main_v34 main_v35 (broadcastInDim S16384 ![0] bcast_S1_S16384_0 : (⟨S1, .f32⟩ : BufTy).Contents (Elt F) → (⟨S16384, .f32⟩ : BufTy).Contents (Elt F)),
    StableHlo.binary main_v25 main_v35 main_v36 (addf : (⟨S16384, .f32⟩ : BufTy).Contents (Elt F) → (⟨S16384, .f32⟩ : BufTy).Contents (Elt F) → (⟨S16384, .f32⟩ : BufTy).Contents (Elt F)),
    StableHlo.unary main_v36 main_v37 (broadcastInDim S16384x1 ![0] bcast_S16384_S16384x1_0 : (⟨S16384, .f32⟩ : BufTy).Contents (Elt F) → (⟨S16384x1, .f32⟩ : BufTy).Contents (Elt F)),
    StableHlo.binary main_v8 main_arg4 main_v38 ((fun l r => Host.dotGeneral dot_S16384x512_S512x2048_S16384x2048_1_0_0_1_n_n none l r) : (⟨S16384x512, .f32⟩ : BufTy).Contents (Elt F) → (⟨S512x2048, .f32⟩ : BufTy).Contents (Elt F) → (⟨S16384x2048, .f32⟩ : BufTy).Contents (Elt F)),
    StableHlo.unary main_arg5 main_v39 (broadcastInDim S1x2048 ![1] bcast_S2048_S1x2048_1 : (⟨S2048, .f32⟩ : BufTy).Contents (Elt F) → (⟨S1x2048, .f32⟩ : BufTy).Contents (Elt F)),
    StableHlo.unary main_v39 main_v40 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v38 main_v40 main_v41 (addf : (⟨S16384x2048, .f32⟩ : BufTy).Contents (Elt F) → (⟨S16384x2048, .f32⟩ : BufTy).Contents (Elt F) → (⟨S16384x2048, .f32⟩ : BufTy).Contents (Elt F)),
    StableHlo.TRef.nullary main_call0.cst (constant S_ .f32 0x00000000#32),
    StableHlo.TRef.unary main_call0.cst main_call0.v0 (broadcastInDim S16384x2048 ![] bcast_S_S16384x2048),
    StableHlo.TRef.binary (.of main_v41) main_call0.v0 main_call0.v1 maximumf,
    StableHlo.binary main_v42 main_arg6 main_v43 ((fun l r => Host.dotGeneral dot_S16384x2048_S2048x1024_S16384x1024_1_0_0_1_n_n none l r) : (⟨S16384x2048, .f32⟩ : BufTy).Contents (Elt F) → (⟨S2048x1024, .f32⟩ : BufTy).Contents (Elt F) → (⟨S16384x1024, .f32⟩ : BufTy).Contents (Elt F)),
    StableHlo.unary main_arg7 main_v44 (broadcastInDim S1x1024 ![1] bcast_S1024_S1x1024_1 : (⟨S1024, .f32⟩ : BufTy).Contents (Elt F) → (⟨S1x1024, .f32⟩ : BufTy).Contents (Elt F)),
    StableHlo.unary main_v44 main_v45 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v43 main_v45 main_v46 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call1.cst (constant S_ .f32 0x00000000#32),
    StableHlo.TRef.unary main_call1.cst main_call1.v0 (broadcastInDim S16384x1024 ![] bcast_S_S16384x1024),
    StableHlo.TRef.binary (.of main_v46) main_call1.v0 main_call1.v1 maximumf,
    StableHlo.binary main_v47 main_arg8 main_v48 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg9 main_v49 (broadcastInDim S1x512 ![1] bcast_S512_S1x512_1 : (⟨S512, .f32⟩ : BufTy).Contents (Elt F) → (⟨S1x512, .f32⟩ : BufTy).Contents (Elt F)),
    StableHlo.unary main_v49 main_v50 (broadcastInDim S16384x512 ![0, 1] bcast_S1x512_S16384x512_0_1 : (⟨S1x512, .f32⟩ : BufTy).Contents (Elt F) → (⟨S16384x512, .f32⟩ : BufTy).Contents (Elt F)),
    StableHlo.binary main_v48 main_v50 main_v51 (addf : (⟨S16384x512, .f32⟩ : BufTy).Contents (Elt F) → (⟨S16384x512, .f32⟩ : BufTy).Contents (Elt F) → (⟨S16384x512, .f32⟩ : BufTy).Contents (Elt F)),
    StableHlo.TRef.nullary main_call2.cst (constant S_ .f32 0x00000000#32),
    StableHlo.TRef.unary main_call2.cst main_call2.v0 (broadcastInDim S16384x512 ![] bcast_S_S16384x512),
    StableHlo.TRef.binary (.of main_v51) main_call2.v0 main_call2.v1 maximumf,
    StableHlo.binary main_v52 main_arg10 main_v53 ((fun l r => Host.dotGeneral dot_S16384x512_S512x1_S16384x1_1_0_0_1_n_n none l r) : (⟨S16384x512, .f32⟩ : BufTy).Contents (Elt F) → (⟨S512x1, .f32⟩ : BufTy).Contents (Elt F) → (⟨S16384x1, .f32⟩ : BufTy).Contents (Elt F)),
    StableHlo.unary main_arg11 main_v54 (broadcastInDim S1x1 ![1] bcast_S1_S1x1_1 : (⟨S1, .f32⟩ : BufTy).Contents (Elt F) → (⟨S1x1, .f32⟩ : BufTy).Contents (Elt F)),
    StableHlo.unary main_v54 main_v55 (broadcastInDim S16384x1 ![0, 1] bcast_S1x1_S16384x1_0_1 : (⟨S1x1, .f32⟩ : BufTy).Contents (Elt F) → (⟨S16384x1, .f32⟩ : BufTy).Contents (Elt F)),
    StableHlo.binary main_v53 main_v55 main_v56 (addf : (⟨S16384x1, .f32⟩ : BufTy).Contents (Elt F) → (⟨S16384x1, .f32⟩ : BufTy).Contents (Elt F) → (⟨S16384x1, .f32⟩ : BufTy).Contents (Elt F)),
    StableHlo.binary main_v37 main_v56 main_v57 (addf : (⟨S16384x1, .f32⟩ : BufTy).Contents (Elt F) → (⟨S16384x1, .f32⟩ : BufTy).Contents (Elt F) → (⟨S16384x1, .f32⟩ : BufTy).Contents (Elt F)),
    StableHlo.unary main_v57 main_v58 (Host.negf : (⟨S16384x1, .f32⟩ : BufTy).Contents (Elt F) → (⟨S16384x1, .f32⟩ : BufTy).Contents (Elt F)),
    StableHlo.unary main_v58 main_v59 (Host.exp : (⟨S16384x1, .f32⟩ : BufTy).Contents (Elt F) → (⟨S16384x1, .f32⟩ : BufTy).Contents (Elt F)),
    StableHlo.nullary main_cst_9 (constant S_ .f32 0x3F800000#32),
    StableHlo.unary main_cst_9 main_v60 (broadcastInDim S16384x1 ![] bcast_S_S16384x1 : (⟨S_, .f32⟩ : BufTy).Contents (Elt F) → (⟨S16384x1, .f32⟩ : BufTy).Contents (Elt F)),
    StableHlo.binary main_v60 main_v59 main_v61 (addf : (⟨S16384x1, .f32⟩ : BufTy).Contents (Elt F) → (⟨S16384x1, .f32⟩ : BufTy).Contents (Elt F) → (⟨S16384x1, .f32⟩ : BufTy).Contents (Elt F)),
    StableHlo.nullary main_cst_10 (constant S_ .f32 0x3F800000#32),
    StableHlo.unary main_cst_10 main_v62 (broadcastInDim S16384x1 ![] bcast_S_S16384x1 : (⟨S_, .f32⟩ : BufTy).Contents (Elt F) → (⟨S16384x1, .f32⟩ : BufTy).Contents (Elt F)),
    StableHlo.binary main_v62 main_v61 main_v63 (Host.divf : (⟨S16384x1, .f32⟩ : BufTy).Contents (Elt F) → (⟨S16384x1, .f32⟩ : BufTy).Contents (Elt F) → (⟨S16384x1, .f32⟩ : BufTy).Contents (Elt F)) ]

set_option maxRecDepth 8192 in
set_option maxHeartbeats 4000000 in
/-- The program is that list run in order: its two halves and the rectifier's body unfold to it. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., binary_bufs_sub .., unary_bufs_sub .., binary_bufs_sub .., nullary_bufs_sub .., binary_bufs_sub .., binary_bufs_sub .., binary_bufs_sub .., nullary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩

/-- Every weakly fair execution of the reference terminates, and every final state has each buffer at the fold of
    the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Straight

end
-- ==== Proof.RValue.lean ====
/-
  What the reference computes, stretch by stretch.

  The reference's eighty-three operations are read as five functions: the embedded batch and the linear term of the
  category ids; the row statistic of the embedded batch as a vector; the sum of the bias, the linear term and half the
  statistic's total, laid out as a column; the four dense layers of the embedded batch; and the logistic function of the
  sum of the last two. The fold of the operations at the result buffer is their composition, and the operations write no
  argument buffer.
-/
import proofs.«163180_j37349035606580_2_alg».proof.Proof.RefRun

noncomputable section

namespace Cert.ReferenceIdeal.HostSide

open Cert.ReferenceIdeal Cert.ReferenceIdeal.Gen Cert.ReferenceIdeal.Straight Idealize.ShloMosaic Idealize.ShloMosaic.TcCoe Idealize.SL.Sem Idealize.ShloMosaic.StableHlo

variable {F : FTy → Type} [FloatOps F]

/-- The embedded batch: for each batch row the embedding rows of its four category ids, side by side. -/
def embedOf (a0 : (⟨S16384x4, .f32⟩ : BufTy).Contents (Elt F)) (a3 : (⟨S38279x128, .f32⟩ : BufTy).Contents (Elt F)) : (⟨S16384x512, .f32⟩ : BufTy).Contents (Elt F) :=
  (shapeCast S16384x512 (((fun x i => Host.gather gather_S38279x128_S16384x4x1_S16384x4x128_2_0_n_n_0_2_1128 x i) : (⟨S38279x128, .f32⟩ : BufTy).Contents (Elt F) → (⟨S16384x4x1, .i32⟩ : BufTy).Contents (Elt F) → (⟨S16384x4x128, .f32⟩ : BufTy).Contents (Elt F)) a3 ((broadcastInDim S16384x4x1 ![0, 1] bcast_S16384x4_S16384x4x1_0_1 : (⟨S16384x4, .i32⟩ : BufTy).Contents (Elt F) → (⟨S16384x4x1, .i32⟩ : BufTy).Contents (Elt F)) ((select : (⟨S16384x4, .i1⟩ : BufTy).Contents (Elt F) → (⟨S16384x4, .i32⟩ : BufTy).Contents (Elt F) → (⟨S16384x4, .i32⟩ : BufTy).Contents (Elt F) → (⟨S16384x4, .i32⟩ : BufTy).Contents (Elt F)) ((cmpi .slt : (⟨S16384x4, .i32⟩ : BufTy).Contents (Elt F) → (⟨S16384x4, .i32⟩ : BufTy).Contents (Elt F) → (⟨S16384x4, .i1⟩ : BufTy).Contents (Elt F)) ((fptosi 32 : (⟨S16384x4, .f32⟩ : BufTy).Contents (Elt F) → (⟨S16384x4, .i32⟩ : BufTy).Contents (Elt F)) a0) ((broadcastInDim S16384x4 ![] bcast_S_S16384x4 : (⟨S_, .i32⟩ : BufTy).Contents (Elt F) → (⟨S16384x4, .i32⟩ : BufTy).Contents (Elt F)) ((constantI S_ 32 0#32)))) ((addi : (⟨S16384x4, .i32⟩ : BufTy).Contents (Elt F) → (⟨S16384x4, .i32⟩ : BufTy).Contents (Elt F) → (⟨S16384x4, .i32⟩ : BufTy).Contents (Elt F)) ((fptosi 32 : (⟨S16384x4, .f32⟩ : BufTy).Contents (Elt F) → (⟨S16384x4, .i32⟩ : BufTy).Contents (Elt F)) a0) ((broadcastInDim S16384x4 ![] bcast_S_S16384x4 : (⟨S_, .i32⟩ : BufTy).Contents (Elt F) → (⟨S16384x4, .i32⟩ : BufTy).Contents (Elt F)) ((constantI S_ 32 38279#32)))) ((fptosi 32 : (⟨S16384x4, .f32⟩ : BufTy).Contents (Elt F) → (⟨S16384x4, .i32⟩ : BufTy).Contents (Elt F)) a0)))) shapeCasts_S16384x4x128_S16384x512)

/-- The linear term: for each batch row the sum of the linear weights at its four offset ids. -/
def linOf (a0 : (⟨S16384x4, .f32⟩ : BufTy).Contents (Elt F)) (a2 : (⟨S38279x1, .f32⟩ : BufTy).Contents (Elt F)) : (⟨S16384, .f32⟩ : BufTy).Contents (Elt F) :=
  (((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)) (((fun x i => Host.gather gather_S38279x1_S16384x4x2_S16384x4_n_01_n_n_01_2_11 x i) : (⟨S38279x1, .f32⟩ : BufTy).Contents (Elt F) → (⟨S16384x4x2, .i32⟩ : BufTy).Contents (Elt F) → (⟨S16384x4, .f32⟩ : BufTy).Contents (Elt F)) a2 (((fun a b => concatenate S16384x4x2 2 [⟨S16384x4x1, a⟩, ⟨S16384x4x1, b⟩] concatenates_S16384x4x1_S16384x4x1_S16384x4x2_d2) : (⟨S16384x4x1, .i32⟩ : BufTy).Contents (Elt F) → (⟨S16384x4x1, .i32⟩ : BufTy).Contents (Elt F) → (⟨S16384x4x2, .i32⟩ : BufTy).Contents (Elt F)) ((broadcastInDim S16384x4x1 ![0, 1] bcast_S16384x4_S16384x4x1_0_1 : (⟨S16384x4, .i32⟩ : BufTy).Contents (Elt F) → (⟨S16384x4x1, .i32⟩ : BufTy).Contents (Elt F)) ((select : (⟨S16384x4, .i1⟩ : BufTy).Contents (Elt F) → (⟨S16384x4, .i32⟩ : BufTy).Contents (Elt F) → (⟨S16384x4, .i32⟩ : BufTy).Contents (Elt F) → (⟨S16384x4, .i32⟩ : BufTy).Contents (Elt F)) ((cmpi .slt : (⟨S16384x4, .i32⟩ : BufTy).Contents (Elt F) → (⟨S16384x4, .i32⟩ : BufTy).Contents (Elt F) → (⟨S16384x4, .i1⟩ : BufTy).Contents (Elt F)) ((addi : (⟨S16384x4, .i32⟩ : BufTy).Contents (Elt F) → (⟨S16384x4, .i32⟩ : BufTy).Contents (Elt F) → (⟨S16384x4, .i32⟩ : BufTy).Contents (Elt F)) ((fptosi 32 : (⟨S16384x4, .f32⟩ : BufTy).Contents (Elt F) → (⟨S16384x4, .i32⟩ : BufTy).Contents (Elt F)) a0) ((broadcastInDim S16384x4 ![0, 1] bcast_S1x4_S16384x4_0_1 : (⟨S1x4, .i32⟩ : BufTy).Contents (Elt F) → (⟨S16384x4, .i32⟩ : BufTy).Contents (Elt F)) ((broadcastInDim S1x4 ![1] bcast_S4_S1x4_1 : (⟨S4, .i32⟩ : BufTy).Contents (Elt F) → (⟨S1x4, .i32⟩ : BufTy).Contents (Elt F)) ((fun i => lit0 (S4.rowMajor i)))))) ((broadcastInDim S16384x4 ![] bcast_S_S16384x4 : (⟨S_, .i32⟩ : BufTy).Contents (Elt F) → (⟨S16384x4, .i32⟩ : BufTy).Contents (Elt F)) ((constantI S_ 32 0#32)))) ((addi : (⟨S16384x4, .i32⟩ : BufTy).Contents (Elt F) → (⟨S16384x4, .i32⟩ : BufTy).Contents (Elt F) → (⟨S16384x4, .i32⟩ : BufTy).Contents (Elt F)) ((addi : (⟨S16384x4, .i32⟩ : BufTy).Contents (Elt F) → (⟨S16384x4, .i32⟩ : BufTy).Contents (Elt F) → (⟨S16384x4, .i32⟩ : BufTy).Contents (Elt F)) ((fptosi 32 : (⟨S16384x4, .f32⟩ : BufTy).Contents (Elt F) → (⟨S16384x4, .i32⟩ : BufTy).Contents (Elt F)) a0) ((broadcastInDim S16384x4 ![0, 1] bcast_S1x4_S16384x4_0_1 : (⟨S1x4, .i32⟩ : BufTy).Contents (Elt F) → (⟨S16384x4, .i32⟩ : BufTy).Contents (Elt F)) ((broadcastInDim S1x4 ![1] bcast_S4_S1x4_1 : (⟨S4, .i32⟩ : BufTy).Contents (Elt F) → (⟨S1x4, .i32⟩ : BufTy).Contents (Elt F)) ((fun i => lit0 (S4.rowMajor i)))))) ((broadcastInDim S16384x4 ![] bcast_S_S16384x4 : (⟨S_, .i32⟩ : BufTy).Contents (Elt F) → (⟨S16384x4, .i32⟩ : BufTy).Contents (Elt F)) ((constantI S_ 32 38279#32)))) ((addi : (⟨S16384x4, .i32⟩ : BufTy).Contents (Elt F) → (⟨S16384x4, .i32⟩ : BufTy).Contents (Elt F) → (⟨S16384x4, .i32⟩ : BufTy).Contents (Elt F)) ((fptosi 32 : (⟨S16384x4, .f32⟩ : BufTy).Contents (Elt F) → (⟨S16384x4, .i32⟩ : BufTy).Contents (Elt F)) a0) ((broadcastInDim S16384x4 ![0, 1] bcast_S1x4_S16384x4_0_1 : (⟨S1x4, .i32⟩ : BufTy).Contents (Elt F) → (⟨S16384x4, .i32⟩ : BufTy).Contents (Elt F)) ((broadcastInDim S1x4 ![1] bcast_S4_S1x4_1 : (⟨S4, .i32⟩ : BufTy).Contents (Elt F) → (⟨S1x4, .i32⟩ : BufTy).Contents (Elt F)) ((fun i => lit0 (S4.rowMajor i)))))))) ((broadcastInDim S16384x4x1 ![0, 1] bcast_S16384x4_S16384x4x1_0_1 : (⟨S16384x4, .i32⟩ : BufTy).Contents (Elt F) → (⟨S16384x4x1, .i32⟩ : BufTy).Contents (Elt F)) ((id : (⟨S16384x4, .i32⟩ : BufTy).Contents (Elt F) → (⟨S16384x4, .i32⟩ : BufTy).Contents (Elt F)) ((broadcastInDim S16384x4 ![] bcast_S_S16384x4 : (⟨S_, .i32⟩ : BufTy).Contents (Elt F) → (⟨S16384x4, .i32⟩ : BufTy).Contents (Elt F)) ((constantI S_ 32 0#32))))))) ((constant S_ .f32 0x00000000#32)))

/-- The row statistic of the embedded batch as a vector: the square of each row's sum minus the sum of its squares. -/
def statVec (e : (⟨S16384x512, .f32⟩ : BufTy).Contents (Elt F)) : (⟨S16384, .f32⟩ : BufTy).Contents (Elt F) :=
  ((subf : (⟨S16384, .f32⟩ : BufTy).Contents (Elt F) → (⟨S16384, .f32⟩ : BufTy).Contents (Elt F) → (⟨S16384, .f32⟩ : BufTy).Contents (Elt F)) ((mulf : (⟨S16384, .f32⟩ : BufTy).Contents (Elt F) → (⟨S16384, .f32⟩ : BufTy).Contents (Elt F) → (⟨S16384, .f32⟩ : BufTy).Contents (Elt F)) (((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)) e ((constant S_ .f32 0x00000000#32))) (((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)) e ((constant S_ .f32 0x00000000#32)))) (((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)) ((mulf : (⟨S16384x512, .f32⟩ : BufTy).Contents (Elt F) → (⟨S16384x512, .f32⟩ : BufTy).Contents (Elt F) → (⟨S16384x512, .f32⟩ : BufTy).Contents (Elt F)) e e) ((constant S_ .f32 0x00000000#32))))

/-- Bias + linear term + half the statistic's total, as a column. -/
def side (bias : (⟨S1, .f32⟩ : BufTy).Contents (Elt F)) (lin : (⟨S16384, .f32⟩ : BufTy).Contents (Elt F)) (e : (⟨S16384x512, .f32⟩ : BufTy).Contents (Elt F)) : (⟨S16384x1, .f32⟩ : BufTy).Contents (Elt F) :=
  ((broadcastInDim S16384x1 ![0] bcast_S16384_S16384x1_0 : (⟨S16384, .f32⟩ : BufTy).Contents (Elt F) → (⟨S16384x1, .f32⟩ : BufTy).Contents (Elt F)) ((addf : (⟨S16384, .f32⟩ : BufTy).Contents (Elt F) → (⟨S16384, .f32⟩ : BufTy).Contents (Elt F) → (⟨S16384, .f32⟩ : BufTy).Contents (Elt F)) ((addf : (⟨S16384, .f32⟩ : BufTy).Contents (Elt F) → (⟨S16384, .f32⟩ : BufTy).Contents (Elt F) → (⟨S16384, .f32⟩ : BufTy).Contents (Elt F)) ((broadcastInDim S16384 ![0] bcast_S1_S16384_0 : (⟨S1, .f32⟩ : BufTy).Contents (Elt F) → (⟨S16384, .f32⟩ : BufTy).Contents (Elt F)) bias) lin) ((broadcastInDim S16384 ![0] bcast_S1_S16384_0 : (⟨S1, .f32⟩ : BufTy).Contents (Elt F) → (⟨S16384, .f32⟩ : BufTy).Contents (Elt F)) ((mulf : (⟨S1, .f32⟩ : BufTy).Contents (Elt F) → (⟨S1, .f32⟩ : BufTy).Contents (Elt F) → (⟨S1, .f32⟩ : BufTy).Contents (Elt F)) ((broadcastInDim S1 ![] bcast_S_S1 : (⟨S_, .f32⟩ : BufTy).Contents (Elt F) → (⟨S1, .f32⟩ : BufTy).Contents (Elt F)) ((constant S_ .f32 0x3F000000#32))) ((broadcastInDim S1 ![] bcast_S_S1 : (⟨S_, .f32⟩ : BufTy).Contents (Elt F) → (⟨S1, .f32⟩ : BufTy).Contents (Elt F)) (((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)) (statVec e) ((constant S_ .f32 0x00000000#32))))))))

/-- The four dense layers of the embedded batch. -/
def layers (e : (⟨S16384x512, .f32⟩ : BufTy).Contents (Elt F)) (a4 : (⟨S512x2048, .f32⟩ : BufTy).Contents (Elt F)) (a5 : (⟨S2048, .f32⟩ : BufTy).Contents (Elt F)) (a6 : (⟨S2048x1024, .f32⟩ : BufTy).Contents (Elt F)) (a7 : (⟨S1024, .f32⟩ : BufTy).Contents (Elt F))
    (a8 : (⟨S1024x512, .f32⟩ : BufTy).Contents (Elt F)) (a9 : (⟨S512, .f32⟩ : BufTy).Contents (Elt F)) (a10 : (⟨S512x1, .f32⟩ : BufTy).Contents (Elt F)) (a11 : (⟨S1, .f32⟩ : BufTy).Contents (Elt F)) : (⟨S16384x1, .f32⟩ : BufTy).Contents (Elt F) :=
  ((addf : (⟨S16384x1, .f32⟩ : BufTy).Contents (Elt F) → (⟨S16384x1, .f32⟩ : BufTy).Contents (Elt F) → (⟨S16384x1, .f32⟩ : BufTy).Contents (Elt F)) (((fun l r => Host.dotGeneral dot_S16384x512_S512x1_S16384x1_1_0_0_1_n_n none l r) : (⟨S16384x512, .f32⟩ : BufTy).Contents (Elt F) → (⟨S512x1, .f32⟩ : BufTy).Contents (Elt F) → (⟨S16384x1, .f32⟩ : BufTy).Contents (Elt F)) (maximumf ((addf : (⟨S16384x512, .f32⟩ : BufTy).Contents (Elt F) → (⟨S16384x512, .f32⟩ : BufTy).Contents (Elt F) → (⟨S16384x512, .f32⟩ : BufTy).Contents (Elt F)) (((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)) (maximumf ((addf : (⟨S16384x1024, .f32⟩ : BufTy).Contents (Elt F) → (⟨S16384x1024, .f32⟩ : BufTy).Contents (Elt F) → (⟨S16384x1024, .f32⟩ : BufTy).Contents (Elt F)) (((fun l r => Host.dotGeneral dot_S16384x2048_S2048x1024_S16384x1024_1_0_0_1_n_n none l r) : (⟨S16384x2048, .f32⟩ : BufTy).Contents (Elt F) → (⟨S2048x1024, .f32⟩ : BufTy).Contents (Elt F) → (⟨S16384x1024, .f32⟩ : BufTy).Contents (Elt F)) (maximumf ((addf : (⟨S16384x2048, .f32⟩ : BufTy).Contents (Elt F) → (⟨S16384x2048, .f32⟩ : BufTy).Contents (Elt F) → (⟨S16384x2048, .f32⟩ : BufTy).Contents (Elt F)) (((fun l r => Host.dotGeneral dot_S16384x512_S512x2048_S16384x2048_1_0_0_1_n_n none l r) : (⟨S16384x512, .f32⟩ : BufTy).Contents (Elt F) → (⟨S512x2048, .f32⟩ : BufTy).Contents (Elt F) → (⟨S16384x2048, .f32⟩ : BufTy).Contents (Elt F)) e a4) ((broadcastInDim S16384x2048 ![0, 1] bcast_S1x2048_S16384x2048_0_1 : (⟨S1x2048, .f32⟩ : BufTy).Contents (Elt F) → (⟨S16384x2048, .f32⟩ : BufTy).Contents (Elt F)) ((broadcastInDim S1x2048 ![1] bcast_S2048_S1x2048_1 : (⟨S2048, .f32⟩ : BufTy).Contents (Elt F) → (⟨S1x2048, .f32⟩ : BufTy).Contents (Elt F)) a5))) ((broadcastInDim S16384x2048 ![] bcast_S_S16384x2048) ((constant (F := F) S_ .f32 0x00000000#32)))) a6) ((broadcastInDim S16384x1024 ![0, 1] bcast_S1x1024_S16384x1024_0_1 : (⟨S1x1024, .f32⟩ : BufTy).Contents (Elt F) → (⟨S16384x1024, .f32⟩ : BufTy).Contents (Elt F)) ((broadcastInDim S1x1024 ![1] bcast_S1024_S1x1024_1 : (⟨S1024, .f32⟩ : BufTy).Contents (Elt F) → (⟨S1x1024, .f32⟩ : BufTy).Contents (Elt F)) a7))) ((broadcastInDim S16384x1024 ![] bcast_S_S16384x1024) ((constant (F := F) S_ .f32 0x00000000#32)))) a8) ((broadcastInDim S16384x512 ![0, 1] bcast_S1x512_S16384x512_0_1 : (⟨S1x512, .f32⟩ : BufTy).Contents (Elt F) → (⟨S16384x512, .f32⟩ : BufTy).Contents (Elt F)) ((broadcastInDim S1x512 ![1] bcast_S512_S1x512_1 : (⟨S512, .f32⟩ : BufTy).Contents (Elt F) → (⟨S1x512, .f32⟩ : BufTy).Contents (Elt F)) a9))) ((broadcastInDim S16384x512 ![] bcast_S_S16384x512) ((constant (F := F) S_ .f32 0x00000000#32)))) a10) ((broadcastInDim S16384x1 ![0, 1] bcast_S1x1_S16384x1_0_1 : (⟨S1x1, .f32⟩ : BufTy).Contents (Elt F) → (⟨S16384x1, .f32⟩ : BufTy).Contents (Elt F)) ((broadcastInDim S1x1 ![1] bcast_S1_S1x1_1 : (⟨S1, .f32⟩ : BufTy).Contents (Elt F) → (⟨S1x1, .f32⟩ : BufTy).Contents (Elt F)) a11)))

/-- The sum of the two columns. -/
def total (s y : (⟨S16384x1, .f32⟩ : BufTy).Contents (Elt F)) : (⟨S16384x1, .f32⟩ : BufTy).Contents (Elt F) :=
  ((addf : (⟨S16384x1, .f32⟩ : BufTy).Contents (Elt F) → (⟨S16384x1, .f32⟩ : BufTy).Contents (Elt F) → (⟨S16384x1, .f32⟩ : BufTy).Contents (Elt F)) s y)

/-- The logistic function, entry by entry: 1 / (1 + exp(−z)). -/
def logistic (z : (⟨S16384x1, .f32⟩ : BufTy).Contents (Elt F)) : (⟨S16384x1, .f32⟩ : BufTy).Contents (Elt F) :=
  ((Host.divf : (⟨S16384x1, .f32⟩ : BufTy).Contents (Elt F) → (⟨S16384x1, .f32⟩ : BufTy).Contents (Elt F) → (⟨S16384x1, .f32⟩ : BufTy).Contents (Elt F)) ((broadcastInDim S16384x1 ![] bcast_S_S16384x1 : (⟨S_, .f32⟩ : BufTy).Contents (Elt F) → (⟨S16384x1, .f32⟩ : BufTy).Contents (Elt F)) ((constant S_ .f32 0x3F800000#32))) ((addf : (⟨S16384x1, .f32⟩ : BufTy).Contents (Elt F) → (⟨S16384x1, .f32⟩ : BufTy).Contents (Elt F) → (⟨S16384x1, .f32⟩ : BufTy).Contents (Elt F)) ((broadcastInDim S16384x1 ![] bcast_S_S16384x1 : (⟨S_, .f32⟩ : BufTy).Contents (Elt F) → (⟨S16384x1, .f32⟩ : BufTy).Contents (Elt F)) ((constant S_ .f32 0x3F800000#32))) ((Host.exp : (⟨S16384x1, .f32⟩ : BufTy).Contents (Elt F) → (⟨S16384x1, .f32⟩ : BufTy).Contents (Elt F)) ((Host.negf : (⟨S16384x1, .f32⟩ : BufTy).Contents (Elt F) → (⟨S16384x1, .f32⟩ : BufTy).Contents (Elt F)) z))))

/-- The reference's result as one function of its twelve arguments. -/
def result (a0 : (⟨S16384x4, .f32⟩ : BufTy).Contents (Elt F)) (a1 : (⟨S1, .f32⟩ : BufTy).Contents (Elt F)) (a2 : (⟨S38279x1, .f32⟩ : BufTy).Contents (Elt F)) (a3 : (⟨S38279x128, .f32⟩ : BufTy).Contents (Elt F)) (a4 : (⟨S512x2048, .f32⟩ : BufTy).Contents (Elt F)) (a5 : (⟨S2048, .f32⟩ : BufTy).Contents (Elt F))
    (a6 : (⟨S2048x1024, .f32⟩ : BufTy).Contents (Elt F)) (a7 : (⟨S1024, .f32⟩ : BufTy).Contents (Elt F)) (a8 : (⟨S1024x512, .f32⟩ : BufTy).Contents (Elt F)) (a9 : (⟨S512, .f32⟩ : BufTy).Contents (Elt F)) (a10 : (⟨S512x1, .f32⟩ : BufTy).Contents (Elt F)) (a11 : (⟨S1, .f32⟩ : BufTy).Contents (Elt F)) :
    (⟨S16384x1, .f32⟩ : BufTy).Contents (Elt F) :=
  logistic (total (side a1 (linOf a0 a2) (embedOf a0 a3)) (layers (embedOf a0 a3) a4 a5 a6 a7 a8 a9 a10 a11))

attribute [local irreducible] Host.gather in
set_option maxRecDepth 16384 in
set_option maxHeartbeats 8000000 in
/-- The fold of the operations at the result buffer is that function of the contents of the argument buffers. -/
theorem result_eq (V : Valuation τ sig (Elt F)) :
    after ops V (Proc.devRef .tc main_v63)
      = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  after_results_simp <;> rfl

set_option maxRecDepth 16384 in
set_option maxHeartbeats 8000000 in
theorem kept_arg0 (V : Valuation τ sig (Elt F)) : after ops V (Proc.devRef .tc main_arg0) = V (Proc.devRef .tc main_arg0) := by
  after_results_simp
set_option maxRecDepth 16384 in
set_option maxHeartbeats 8000000 in
theorem kept_arg1 (V : Valuation τ sig (Elt F)) : after ops V (Proc.devRef .tc main_arg1) = V (Proc.devRef .tc main_arg1) := by
  after_results_simp
set_option maxRecDepth 16384 in
set_option maxHeartbeats 8000000 in
theorem kept_arg2 (V : Valuation τ sig (Elt F)) : after ops V (Proc.devRef .tc main_arg2) = V (Proc.devRef .tc main_arg2) := by
  after_results_simp
set_option maxRecDepth 16384 in
set_option maxHeartbeats 8000000 in
theorem kept_arg3 (V : Valuation τ sig (Elt F)) : after ops V (Proc.devRef .tc main_arg3) = V (Proc.devRef .tc main_arg3) := by
  after_results_simp
set_option maxRecDepth 16384 in
set_option maxHeartbeats 8000000 in
theorem kept_arg4 (V : Valuation τ sig (Elt F)) : after ops V (Proc.devRef .tc main_arg4) = V (Proc.devRef .tc main_arg4) := by
  after_results_simp
set_option maxRecDepth 16384 in
set_option maxHeartbeats 8000000 in
theorem kept_arg5 (V : Valuation τ sig (Elt F)) : after ops V (Proc.devRef .tc main_arg5) = V (Proc.devRef .tc main_arg5) := by
  after_results_simp
set_option maxRecDepth 16384 in
set_option maxHeartbeats 8000000 in
theorem kept_arg6 (V : Valuation τ sig (Elt F)) : after ops V (Proc.devRef .tc main_arg6) = V (Proc.devRef .tc main_arg6) := by
  after_results_simp
set_option maxRecDepth 16384 in
set_option maxHeartbeats 8000000 in
theorem kept_arg7 (V : Valuation τ sig (Elt F)) : after ops V (Proc.devRef .tc main_arg7) = V (Proc.devRef .tc main_arg7) := by
  after_results_simp
set_option maxRecDepth 16384 in
set_option maxHeartbeats 8000000 in
theorem kept_arg8 (V : Valuation τ sig (Elt F)) : after ops V (Proc.devRef .tc main_arg8) = V (Proc.devRef .tc main_arg8) := by
  after_results_simp
set_option maxRecDepth 16384 in
set_option maxHeartbeats 8000000 in
theorem kept_arg9 (V : Valuation τ sig (Elt F)) : after ops V (Proc.devRef .tc main_arg9) = V (Proc.devRef .tc main_arg9) := by
  after_results_simp
set_option maxRecDepth 16384 in
set_option maxHeartbeats 8000000 in
theorem kept_arg10 (V : Valuation τ sig (Elt F)) : after ops V (Proc.devRef .tc main_arg10) = V (Proc.devRef .tc main_arg10) := by
  after_results_simp
set_option maxRecDepth 16384 in
set_option maxHeartbeats 8000000 in
theorem kept_arg11 (V : Valuation τ sig (Elt F)) : after ops V (Proc.devRef .tc main_arg11) = V (Proc.devRef .tc main_arg11) := by
  after_results_simp

end Cert.ReferenceIdeal.HostSide

end
-- ==== Proof.RRead.lean ====
/-
  The reference's stretches, entry by entry.

  The reference's statistic vector is, at each row, the square of the row's sum minus the sum of its squares; its four
  layers are the four rectified affine layers with the biases as vectors; and its sum before the logistic function is, at
  entry (r, q), bias + linear term of row r + half · the statistic's total + the layers' entry — the bias and the half-total
  reaching every row through one-entry vectors broadcast over the batch, the sums reaching the column by a broadcast.
-/
import proofs.«163180_j37349035606580_2_alg».proof.Proof.RValue
import proofs.«163180_j37349035606580_2_alg».proof.Proof.LibRowStat
import proofs.«163180_j37349035606580_2_alg».proof.Proof.LibMlp4
import proofs.«163180_j37349035606580_2_alg».proof.Proof.LibColumn
import proofs.«163180_j37349035606580_2_alg».proof.Proof.Score

noncomputable section

open scoped BigOperators

namespace Cert.ReferenceIdeal.HostSide

open Cert.ReferenceIdeal Cert.ReferenceIdeal.Gen Idealize.ShloMosaic Idealize.ShloMosaic.ValueIdx Cert.Dense Cert.Layout

/-- The four products contract the left factor's columns with the right factor's rows. -/
theorem dot1_plain : dot_S16384x512_S512x2048_S16384x2048_1_0_0_1_n_n = DotDims.plain 16384 512 2048 := rfl
theorem dot2_plain : dot_S16384x2048_S2048x1024_S16384x1024_1_0_0_1_n_n = DotDims.plain 16384 2048 1024 := rfl
theorem dot3_plain : dot_S16384x1024_S1024x512_S16384x512_1_0_0_1_n_n = DotDims.plain 16384 1024 512 := rfl
theorem dot4_plain : dot_S16384x512_S512x1_S16384x1_1_0_0_1_n_n = DotDims.plain 16384 512 1 := rfl

/-- Putting the row's coordinate back into a row index of the batch. -/
theorem lift_row (h : S16384x512.Reduces [1] S16384) (p : Fin 16384) (k : Fin 512) : h.lift (ix1 p) k = ix2 p k :=
  funext fun a => Fin.ext (by
    match a with
    | ⟨0, _⟩ => rfl
    | ⟨1, _⟩ => rfl)

/-- The statistic vector at row p: the square of the row's sum minus the sum of its squares. -/
theorem statVec_apply (e : FVec Ideal S16384x512 .f32) (p : Fin 16384) : statVec (F := Ideal) e (ix1 p) = cross e p := by
  unfold statVec
  dsimp only
  exact host_cross e _ _ (by decide) (lift_row _) p

/-- The reference's four layers are the four rectified affine layers with vector biases. -/
theorem layers_eq (e : FVec Ideal S16384x512 .f32) (a4 : FVec Ideal S512x2048 .f32) (a5 : FVec Ideal S2048 .f32)
    (a6 : FVec Ideal S2048x1024 .f32) (a7 : FVec Ideal S1024 .f32) (a8 : FVec Ideal S1024x512 .f32) (a9 : FVec Ideal S512 .f32)
    (a10 : FVec Ideal S512x1 .f32) (a11 : FVec Ideal S1 .f32) :
    layers (F := Ideal) e a4 a5 a6 a7 a8 a9 a10 a11 = mlp4v e a4 a5 a6 a7 a8 a9 a10 a11 := by
  unfold layers
  dsimp only
  rw [dot1_plain, dot2_plain, dot3_plain, dot4_plain]
  exact host_mlp4 e a4 a5 a6 a7 a8 a9 a10 a11 _ _ _ _ _ _ _ _ _ _ _

/-- The reference's sum is the score of the bias, the linear term, the statistic's rows and the layers' result. -/
theorem total_side_eq (bias : FVec Ideal S1 .f32) (lin : FVec Ideal S16384 .f32) (e : FVec Ideal S16384x512 .f32)
    (y : FVec Ideal S16384x1 .f32) :
    total (F := Ideal) (side (F := Ideal) bias lin e) y
      = score (Ideal.ofBits .f32 0x3F000000#32) bias lin (fun p => cross e p) y := by
  funext i
  obtain ⟨r, q, rfl⟩ : ∃ (r : Fin 16384) (q : Fin 1), i = ix2 r q := ⟨i 0, i 1, eq_ix2 i⟩
  unfold total side
  dsimp only
  rw [addf_apply, bcast_vec_col_apply, addf_apply, addf_apply, bcast_one_vec_apply, bcast_one_vec_apply, mulf_apply,
    bcast_scalar_apply, bcast_scalar_apply, constant_apply, hostTotal_vec]
  simp only [statVec_apply]
  rfl

end Cert.ReferenceIdeal.HostSide

end
-- ==== Proof.Bridge.lean ====
/-
  The kernel's result is the reference's.

  Both programs form the embedded batch and the linear term by the same operations, word for word. Both then apply the
  logistic function to bias + linear term + half · Σ over the rows of ((row sum)² − sum of the row's squares) + the four
  dense layers of the embedded batch. The kernel computes the statistic and the layers on sixteen blocks of 1024 rows with
  the weights in another float format and the biases as one-row matrices, and sums the statistic as a column; the
  reference computes them on the whole batch with vector biases, and sums the statistic as a vector. On the extended reals
  a change of format is the identity, a layer and the statistic act row by row, and the two totals range over the same
  rows, so the two results are equal entry by entry.
-/
import proofs.«163180_j37349035606580_2_alg».proof.Proof.KValue
import proofs.«163180_j37349035606580_2_alg».proof.Proof.KRead
import proofs.«163180_j37349035606580_2_alg».proof.Proof.RRead

noncomputable section

open scoped BigOperators

namespace Cert.Proof.Bridge

open Idealize.ShloMosaic Idealize.ShloMosaic.TcCoe Idealize.SL.Sem Idealize.ShloMosaic.ValueIdx Cert.Dense Cert.Layout

/-- The embedded batch is formed by the same operations in both programs. -/
theorem embed_same (a0 : FVec Ideal Cert.KernelIdeal.S16384x4 .f32) (a3 : FVec Ideal Cert.KernelIdeal.S38279x128 .f32) :
    Cert.KernelIdeal.HostSide.embedOf (F := Ideal) a0 a3 = Cert.ReferenceIdeal.HostSide.embedOf (F := Ideal) a0 a3 := rfl

/-- So is the linear term. -/
theorem lin_same (a0 : FVec Ideal Cert.KernelIdeal.S16384x4 .f32) (a2 : FVec Ideal Cert.KernelIdeal.S38279x1 .f32) :
    Cert.KernelIdeal.HostSide.linOf (F := Ideal) a0 a2 = Cert.ReferenceIdeal.HostSide.linOf (F := Ideal) a0 a2 := rfl

/-- And the logistic function. -/
theorem logistic_same (z : FVec Ideal Cert.KernelIdeal.S16384x1 .f32) :
    Cert.KernelIdeal.HostSide.logistic (F := Ideal) z = Cert.ReferenceIdeal.HostSide.logistic (F := Ideal) z := rfl

/-- The kernel's result, as a function of its arguments, is the reference's result function of the same arguments. -/
theorem out_eq (m : (ℓ : Loc Cert.KernelIdeal.nD Cert.KernelIdeal.τ Cert.KernelIdeal.sig) → Buf (Elt Ideal) ℓ) (c : Dev Cert.KernelIdeal.nD) :
    Cert.KernelIdeal.Whole.out m c
      = Cert.ReferenceIdeal.HostSide.result (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  unfold Cert.KernelIdeal.Whole.out Cert.KernelIdeal.Blocks.crossOut Cert.KernelIdeal.Blocks.layersOut Cert.ReferenceIdeal.HostSide.result
  rw [Cert.KernelIdeal.HostSide.at_v23, Cert.KernelIdeal.HostSide.at_v8, Cert.KernelIdeal.HostSide.at_v24, Cert.KernelIdeal.HostSide.at_v25, Cert.KernelIdeal.HostSide.at_v26,
    Cert.KernelIdeal.HostSide.at_v27, Cert.KernelIdeal.HostSide.at_v28, Cert.KernelIdeal.HostSide.at_v29, Cert.KernelIdeal.HostSide.at_v30, Cert.KernelIdeal.HostSide.at_v31]
  rw [embed_same, lin_same, logistic_same]
  generalize Cert.ReferenceIdeal.HostSide.embedOf (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) = e
  generalize Cert.ReferenceIdeal.HostSide.linOf (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) = L
  refine congrArg (Cert.ReferenceIdeal.HostSide.logistic (F := Ideal)) ?_
  rw [Cert.KernelIdeal.HostSide.preZ_eq, Cert.ReferenceIdeal.HostSide.total_side_eq, Cert.ReferenceIdeal.HostSide.layers_eq]
  refine congrArg (score (Ideal.ofBits .f32 0x3F000000#32) (m ((c : Thread Cert.KernelIdeal.nD Cert.KernelIdeal.τ).loc Cert.KernelIdeal.main_arg1)) L (fun p => cross e p)) ?_
  exact mlp4_eq_mlp4v e _ (m ((c : Thread Cert.KernelIdeal.nD Cert.KernelIdeal.τ).loc Cert.KernelIdeal.main_arg5)) _ _ (m ((c : Thread Cert.KernelIdeal.nD Cert.KernelIdeal.τ).loc Cert.KernelIdeal.main_arg7)) _ _ (m ((c : Thread Cert.KernelIdeal.nD Cert.KernelIdeal.τ).loc Cert.KernelIdeal.main_arg9)) _ _ (m ((c : Thread Cert.KernelIdeal.nD Cert.KernelIdeal.τ).loc Cert.KernelIdeal.main_arg11)) _
    (fun q => cast_vec_row_apply _ _ q) (fun q => cast_vec_row_apply _ _ q) (fun q => cast_vec_row_apply _ _ q)
    (fun q => cast_vec_row_apply _ _ q)

end Cert.Proof.Bridge

end
-- ==== Proof.lean ====
/-
  A click-through model's forward pass: the fused kernel against the plain reference, on the extended reals.

  For each of 16384 batch rows, four category ids pick four 128-entry embedding rows, laid side by side as 512 entries;
  the same ids, offset by their field's start, pick four linear weights, which are summed. The result is the logistic
  function of: the bias, plus that linear term, plus half of Σ over ALL batch rows of ((row sum)² − sum of the row's
  squares) of the embedded batch, plus three rectified dense layers and a last dense layer of the embedded batch.

  The kernel's program gathers on the host, then runs the four layers and the row statistic in one region over sixteen
  blocks of 1024 rows (weights in a narrower float format, biases as one-row matrices), then finishes on the host. The
  reference does everything on the host on the whole batch. The three programs run to the end, leave their arguments
  unchanged, and the two idealized programs end with equal results:
  · the gathers, the linear term and the logistic function are the same operations in both programs;
  · a change of float format is the identity on the extended reals;
  · a matrix product into a zero accumulator and a general dot product are both the sum over the contracted axis, a lane
    sum from the zero word and a host sum from the zero word both the plain sum;
  · a dense layer and the row statistic act on each row by itself, so on a block of rows they are the whole-array
    functions at those rows, and the sixteen blocks tile the 16384 rows;
  · the statistic's total is the same sum over the rows whether the rows are kept as a column or as a vector.
  No step uses that the inputs are finite: sums and products are only re-indexed, never redistributed.
-/
import proofs.«163180_j37349035606580_2_alg».proof.Defs
import proofs.«163180_j37349035606580_2_alg».proof.Proof.Gen.Kernel.Frame
import proofs.«163180_j37349035606580_2_alg».proof.Proof.Gen.KernelIdeal.Frame
import proofs.«163180_j37349035606580_2_alg».proof.Proof.Gen.ReferenceIdeal
import proofs.«163180_j37349035606580_2_alg».proof.Proof.Gen.Pre_finite_inputs
import proofs.«163180_j37349035606580_2_alg».proof.Proof.Bridge
import Idealize.ShloMosaic.Adequacy
import Idealize.ShloMosaic.Init

noncomputable section

namespace Cert.Proof

open Idealize.ShloMosaic Idealize.ShloMosaic.TcCoe Idealize.SL.Sem

/-- The kernel's program at the word level runs to the end and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations none of which writes an argument. -/
theorem frame_referenceIdeal : Cert.frame_ReferenceIdeal := fun m ρ _ =>
  (θ_run Cert.ReferenceIdeal.defs _ _).mono (fun _ h c => ⟨
      (h c Cert.ReferenceIdeal.main_arg0).trans (Cert.ReferenceIdeal.HostSide.kept_arg0 _),
      (h c Cert.ReferenceIdeal.main_arg1).trans (Cert.ReferenceIdeal.HostSide.kept_arg1 _),
      (h c Cert.ReferenceIdeal.main_arg2).trans (Cert.ReferenceIdeal.HostSide.kept_arg2 _),
      (h c Cert.ReferenceIdeal.main_arg3).trans (Cert.ReferenceIdeal.HostSide.kept_arg3 _),
      (h c Cert.ReferenceIdeal.main_arg4).trans (Cert.ReferenceIdeal.HostSide.kept_arg4 _),
      (h c Cert.ReferenceIdeal.main_arg5).trans (Cert.ReferenceIdeal.HostSide.kept_arg5 _),
      (h c Cert.ReferenceIdeal.main_arg6).trans (Cert.ReferenceIdeal.HostSide.kept_arg6 _),
      (h c Cert.ReferenceIdeal.main_arg7).trans (Cert.ReferenceIdeal.HostSide.kept_arg7 _),
      (h c Cert.ReferenceIdeal.main_arg8).trans (Cert.ReferenceIdeal.HostSide.kept_arg8 _),
      (h c Cert.ReferenceIdeal.main_arg9).trans (Cert.ReferenceIdeal.HostSide.kept_arg9 _),
      (h c Cert.ReferenceIdeal.main_arg10).trans (Cert.ReferenceIdeal.HostSide.kept_arg10 _),
      (h c Cert.ReferenceIdeal.main_arg11).trans (Cert.ReferenceIdeal.HostSide.kept_arg11 _)⟩)
    (Cert.ReferenceIdeal.Straight.run (F := Ideal) m ρ)

/-- The idealization rewrote no operation of the kernel's program. -/
theorem preserves : Cert.preserves_Kernel_KernelIdeal := trivial

/-- From memories agreeing on the arguments the two idealized programs end with equal results: the kernel's result is
    the reference's result function of the kernel's arguments, and the reference's run ends at that function of its own. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun r h c => ?_) (Cert.ReferenceIdeal.Straight.run (F := Ideal) m' ρ')
  obtain ⟨g0, g1, g2, g3, g4, g5, g6, g7, g8, g9, g10, g11⟩ := hagree c
  refine ⟨(h c Cert.ReferenceIdeal.main_v63).trans ?_,
    (h c Cert.ReferenceIdeal.main_arg0).trans (Cert.ReferenceIdeal.HostSide.kept_arg0 _),
    (h c Cert.ReferenceIdeal.main_arg1).trans (Cert.ReferenceIdeal.HostSide.kept_arg1 _),
    (h c Cert.ReferenceIdeal.main_arg2).trans (Cert.ReferenceIdeal.HostSide.kept_arg2 _),
    (h c Cert.ReferenceIdeal.main_arg3).trans (Cert.ReferenceIdeal.HostSide.kept_arg3 _),
    (h c Cert.ReferenceIdeal.main_arg4).trans (Cert.ReferenceIdeal.HostSide.kept_arg4 _),
    (h c Cert.ReferenceIdeal.main_arg5).trans (Cert.ReferenceIdeal.HostSide.kept_arg5 _),
    (h c Cert.ReferenceIdeal.main_arg6).trans (Cert.ReferenceIdeal.HostSide.kept_arg6 _),
    (h c Cert.ReferenceIdeal.main_arg7).trans (Cert.ReferenceIdeal.HostSide.kept_arg7 _),
    (h c Cert.ReferenceIdeal.main_arg8).trans (Cert.ReferenceIdeal.HostSide.kept_arg8 _),
    (h c Cert.ReferenceIdeal.main_arg9).trans (Cert.ReferenceIdeal.HostSide.kept_arg9 _),
    (h c Cert.ReferenceIdeal.main_arg10).trans (Cert.ReferenceIdeal.HostSide.kept_arg10 _),
    (h c Cert.ReferenceIdeal.main_arg11).trans (Cert.ReferenceIdeal.HostSide.kept_arg11 _)⟩
  rw [Cert.ReferenceIdeal.HostSide.result_eq]
  show Cert.ReferenceIdeal.HostSide.result (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
  rw [g0, g1, g2, g3, g4, g5, g6, g7, g8, g9, g10, g11]
  exact (Cert.Proof.Bridge.out_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
